-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S1000000x1 : Shape := ⟨2, ![1000000, 1]⟩
abbrev S16 : Shape := ⟨1, ![16]⟩
abbrev S16x16 : Shape := ⟨2, ![16, 16]⟩
abbrev S16x1 : Shape := ⟨2, ![16, 1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_arg4 : FVec F S16x1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16x1 .f32 := Host.absf main_arg4
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  main_v23

def fn {F : FTy → Type} [FloatOps F] (main_arg0 : FVec F S1000000x16 .f32) (main_arg1 : FVec F S1000000x1 .f32) (main_arg2 : FVec F S16 .f32) (main_arg3 : FVec F S16x16 .f32) (main_arg4 : FVec F S16x1 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S1000000x16 : Shape := ⟨2, ![1000000, 16]⟩
abbrev S1000000x1 : Shape := ⟨2, ![1000000, 1]⟩
abbrev S16 : Shape := ⟨1, ![16]⟩
abbrev S16x16 : Shape := ⟨2, ![16, 16]⟩
abbrev S16x1 : Shape := ⟨2, ![16, 1]⟩
abbrev S1x16 : Shape := ⟨2, ![1, 16]⟩
abbrev S5000x16 : Shape := ⟨2, ![5000, 16]⟩
abbrev S5000x1 : Shape := ⟨2, ![5000, 1]⟩
abbrev S5000 : Shape := ⟨1, ![5000]⟩
abbrev S16x5000 : Shape := ⟨2, ![16, 5000]⟩
abbrev S_ : Shape := ⟨0, ![]⟩

abbrev nBuf : Space → Nat
  | .hbm => 24
  | .vmem => 20
  | .smem => 0
  | _ => 0

abbrev bufTy : (tb : Table) → Fin (tcTables nBuf tb) → BufTy
  | .hbm, ⟨0, _⟩ => ⟨S1000000x16, .f32⟩
  | .hbm, ⟨1, _⟩ => ⟨S1000000x1, .f32⟩
  | .hbm, ⟨2, _⟩ => ⟨S16, .f32⟩
  | .hbm, ⟨3, _⟩ => ⟨S16x16, .f32⟩
  | .hbm, ⟨4, _⟩ => ⟨S16x1, .f32⟩
  | .hbm, ⟨5, _⟩ => ⟨S1x16, .f32⟩
  | .hbm, ⟨6, _⟩ => ⟨S1000000x16, .f32⟩
  | .hbm, ⟨7, _⟩ => ⟨S1x16, .f32⟩
  | .hbm, ⟨8, _⟩ => ⟨S16x16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16x1, .f32⟩
  | .hbm, ⟨14, _⟩ => ⟨S16x16, .f32⟩
  | .hbm, ⟨15, _⟩ => ⟨S16x16, .f32⟩
  | .hbm, ⟨16, _⟩ => ⟨S1x16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S16x1, .f32⟩
  | .local _ .vmem, ⟨0, _⟩ => ⟨S5000x16, .f32⟩
  | .local _ .vmem, ⟨1, _⟩ => ⟨S5000x16, .f32⟩
  | .local _ .vmem, ⟨2, _⟩ => ⟨S5000x1, .f32⟩
  | .local _ .vmem, ⟨3, _⟩ => ⟨S5000x1, .f32⟩
  | .local _ .vmem, ⟨4, _⟩ => ⟨S1x16, .f32⟩
  | .local _ .vmem, ⟨5, _⟩ => ⟨S16x16, .f32⟩
  | .local _ .vmem, ⟨6, _⟩ => ⟨S16x1, .f32⟩
  | .local _ .vmem, ⟨7, _⟩ => ⟨S5000x16, .f32⟩
  | .local _ .vmem, ⟨8, _⟩ => ⟨S5000x16, .f32⟩
  | .local _ .vmem, ⟨9, _⟩ => ⟨S1x16, .f32⟩
  | .local _ .vmem, ⟨10, _⟩ => ⟨S16x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S1x16, .f32⟩
  | .local _ .vmem, ⟨16, _⟩ => ⟨S16x16, .f32⟩
  | .local _ .vmem, ⟨17, _⟩ => ⟨S16x1, .f32⟩
  | .local _ .vmem, ⟨18, _⟩ => ⟨S16x16, .f32⟩
  | .local _ .vmem, ⟨19, _⟩ => ⟨S1x16, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  shapeCasts_S16_S1x16 : S16.ShapeCasts S1x16
  inb_S1x16_S1x16_0_0 : ∀ a, (![0, 0] : Fin 2 → Nat) a + S1x16.size a ≤ S1x16.size a
  h_S1x16 : 0 < S1x16.numel
  inb_S16x16_S16x16_0_0 : ∀ a, (![0, 0] : Fin 2 → Nat) a + S16x16.size a ≤ S16x16.size a
  h_S16x16 : 0 < S16x16.numel
  inb_S5000x16_S5000x16_0_0 : ∀ a, (![0, 0] : Fin 2 → Nat) a + S5000x16.size a ≤ S5000x16.size a
  h_S5000x16 : 0 < S5000x16.numel
  inb_S5000x1_S5000x1_0_0 : ∀ a, (![0, 0] : Fin 2 → Nat) a + S5000x1.size a ≤ S5000x1.size a
  h_S5000x1 : 0 < S5000x1.numel
  inb_S16x1_S16x1_0_0 : ∀ a, (![0, 0] : Fin 2 → Nat) a + S16x1.size a ≤ S16x1.size a
  h_S16x1 : 0 < S16x1.numel
  transposes_S16x1_p1_0_S1x16 : S16x1.Transposes [1, 0] S1x16
  shapeCasts_S1x16_S1x16 : S1x16.ShapeCasts S1x16
  reduces_S5000x16_S5000 : S5000x16.Reduces [1] S5000
  shapeCasts_S5000_S5000x1 : S5000.ShapeCasts S5000x1
  reduces_S16x16_S16 : S16x16.Reduces [1] S16
  shapeCasts_S16_S16x1 : S16.ShapeCasts S16x1
  transposes_S16x16_p1_0_S16x16 : S16x16.Transposes [1, 0] S16x16
  broadcasts_S5000x1_S5000x16 : S5000x1.Broadcasts S5000x16
  broadcasts_S1x16_S5000x16 : S1x16.Broadcasts S5000x16
  reduces_S5000x16_S16 : S5000x16.Reduces [0] S16
  shapeCasts_S16x16_S16x16 : S16x16.ShapeCasts S16x16
  transposes_S5000x16_p1_0_S16x5000 : S5000x16.Transposes [1, 0] S16x5000
  shapeCasts_S1x16_S16 : S1x16.ShapeCasts S16
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  dot_S5000x16_S16x16_S5000x16_1_0_0_1_n_n_wf : DotDims.WF S5000x16 S16x16 S5000x16 [1] [0] [0] [1] [] []
  dot_S16x5000_S5000x16_S16x16_1_0_0_1_n_n_wf : DotDims.WF S16x5000 S5000x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S1000000x16.size a
  hwx0_0 : ∀ i : grid0.Coords, EltTy.bits .f32 = 32 ∨ (Rect.block (s := S1000000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .f32 = 32 ∨ (Rect.block (s := S1000000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S1000000x16.size a
  hwx0_5 : ∀ i : grid0.Coords, EltTy.bits .f32 = 32 ∨ (Rect.block (s := S1000000x16) S5000x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S1000000x16.size a
  hwx1_0 : ∀ i : grid1.Coords, EltTy.bits .f32 = 32 ∨ (Rect.block (s := S1000000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .f32 = 32 ∨ (Rect.block (s := S1000000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)

variable [Facts₀]

def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S16x5000_S5000x16_S16x16_1_0_0_1_n_n : DotDims S16x5000 S5000x16 S16x16 where
  lhsContracting := [1]
  rhsContracting := [0]
  lhsNonContracting := [0]
  rhsNonContracting := [1]
  lhsBatch := []
  rhsBatch := []
  wf := dot_S16x5000_S5000x16_S16x16_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S5000x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x16.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S16x16.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x16.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x16 : Shape := ⟨2, ![1000000, 16]⟩
abbrev S1000000x1 : Shape := ⟨2, ![1000000, 1]⟩
abbrev S16 : Shape := ⟨1, ![16]⟩
abbrev S16x16 : Shape := ⟨2, ![16, 16]⟩
abbrev S16x1 : Shape := ⟨2, ![16, 1]⟩
abbrev S1000000 : Shape := ⟨1, ![1000000]⟩
abbrev S_ : Shape := ⟨0, ![]⟩
abbrev S1x16 : Shape := ⟨2, ![1, 16]⟩
abbrev S16x1000000 : Shape := ⟨2, ![16, 1000000]⟩

abbrev nBuf : Space → Nat
  | .hbm => 111
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S1000000x1, .f32⟩
  | .hbm, ⟨2, _⟩ => ⟨S16, .f32⟩
  | .hbm, ⟨3, _⟩ => ⟨S16x16, .f32⟩
  | .hbm, ⟨4, _⟩ => ⟨S16x1, .f32⟩
  | .hbm, ⟨5, _⟩ => ⟨S1000000, .f32⟩
  | .hbm, ⟨6, _⟩ => ⟨S16, .f32⟩
  | .hbm, ⟨7, _⟩ => ⟨S1000000x16, .f32⟩
  | .hbm, ⟨8, _⟩ => ⟨S_, .f32⟩
  | .hbm, ⟨9, _⟩ => ⟨S1000000, .f32⟩
  | .hbm, ⟨10, _⟩ => ⟨S1000000x1, .f32⟩
  | .hbm, ⟨11, _⟩ => ⟨S16x16, .f32⟩
  | .hbm, ⟨12, _⟩ => ⟨S1000000x16, .f32⟩
  | .hbm, ⟨13, _⟩ => ⟨S_, .f32⟩
  | .hbm, ⟨14, _⟩ => ⟨S1000000x16, .f32⟩
  | .hbm, ⟨15, _⟩ => ⟨S1000000x16, .f32⟩
  | .hbm, ⟨16, _⟩ => ⟨S1000000x16, .f32⟩
  | .hbm, ⟨17, _⟩ => ⟨S1000000x16, .f32⟩
  | .hbm, ⟨18, _⟩ => ⟨S16x16, .f32⟩
  | .hbm, ⟨19, _⟩ => ⟨S_, .f32⟩
  | .hbm, ⟨20, _⟩ => ⟨S16, .f32⟩
  | .hbm, ⟨21, _⟩ => ⟨S1x16, .f32⟩
  | .hbm, ⟨22, _⟩ => ⟨S1000000x16, .f32⟩
  | .hbm, ⟨23, _⟩ => ⟨S1000000x16, .f32⟩
  | .hbm, ⟨24, _⟩ => ⟨S16, .f32⟩
  | .hbm, ⟨25, _⟩ => ⟨S16, .f32⟩
  | .hbm, ⟨26, _⟩ => ⟨S1x16, .f32⟩
  | .hbm, ⟨27, _⟩ => ⟨S1x16, .f32⟩
  | .hbm, ⟨28, _⟩ => ⟨S1000000x1, .f32⟩
  | .hbm, ⟨29, _⟩ => ⟨S1000000x16, .f32⟩
  | .hbm, ⟨30, _⟩ => ⟨S1000000x16, .f32⟩
  | .hbm, ⟨31, _⟩ => ⟨S1000000x16, .f32⟩
  | .hbm, ⟨32, _⟩ => ⟨S_, .f32⟩
  | .hbm, ⟨33, _⟩ => ⟨S1000000x16, .f32⟩
  | .hbm, ⟨34, _⟩ => ⟨S1000000x16, .f32⟩
  | .hbm, ⟨35, _⟩ => ⟨S_, .f32⟩
  | .hbm, ⟨36, _⟩ => ⟨S1000000x16, .f32⟩
  | .hbm, ⟨37, _⟩ => ⟨S1000000x16, .f32⟩
  | .hbm, ⟨38, _⟩ => ⟨S1000000, .f32⟩
  | .hbm, ⟨39, _⟩ => ⟨S1000000x1, .f32⟩
  | .hbm, ⟨40, _⟩ => ⟨S1000000x16, .f32⟩
  | .hbm, ⟨41, _⟩ => ⟨S1000000x16, .f32⟩
  | .hbm, ⟨42, _⟩ => ⟨S1000000x16, .f32⟩
  | .hbm, ⟨43, _⟩ => ⟨S1000000x16, .f32⟩
  | .hbm, ⟨44, _⟩ => ⟨S1000000x16, .f32⟩
  | .hbm, ⟨45, _⟩ => ⟨S1000000x16, .f32⟩
  | .hbm, ⟨46, _⟩ => ⟨S1000000x16, .f32⟩
  | .hbm, ⟨47, _⟩ => ⟨S_, .f32⟩
  | .hbm, ⟨48, _⟩ => ⟨S1000000x16, .f32⟩
  | .hbm, ⟨49, _⟩ => ⟨S1000000x16, .f32⟩
  | .hbm, ⟨50, _⟩ => ⟨S16, .f32⟩
  | .hbm, ⟨51, _⟩ => ⟨S1x16, .f32⟩
  | .hbm, ⟨52, _⟩ => ⟨S1000000x16, .f32⟩
  | .hbm, ⟨53, _⟩ => ⟨S1000000x16, .f32⟩
  | .hbm, ⟨54, _⟩ => ⟨S_, .f32⟩
  | .hbm, ⟨55, _⟩ => ⟨S1000000, .f32⟩
  | .hbm, ⟨56, _⟩ => ⟨S_, .f32⟩
  | .hbm, ⟨57, _⟩ => ⟨S1000000, .f32⟩
  | .hbm, ⟨58, _⟩ => ⟨S1000000, .f32⟩
  | .hbm, ⟨59, _⟩ => ⟨S1000000x1, .f32⟩
  | .hbm, ⟨60, _⟩ => ⟨S1000000x16, .f32⟩
  | .hbm, ⟨61, _⟩ => ⟨S1000000x16, .f32⟩
  | .hbm, ⟨62, _⟩ => ⟨S1000000x16, .f32⟩
  | .hbm, ⟨63, _⟩ => ⟨S_, .f32⟩
  | .hbm, ⟨64, _⟩ => ⟨S1000000, .f32⟩
  | .hbm, ⟨65, _⟩ => ⟨S1000000x1, .f32⟩
  | .hbm, ⟨66, _⟩ => ⟨S1000000x16, .f32⟩
  | .hbm, ⟨67, _⟩ => ⟨S1000000x16, .f32⟩
  | .hbm, ⟨68, _⟩ => ⟨S_, .f32⟩
  | .hbm, ⟨69, _⟩ => ⟨S1000000x16, .f32⟩
  | .hbm, ⟨70, _⟩ => ⟨S1000000x16, .f32⟩
  | .hbm, ⟨71, _⟩ => ⟨S_, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16x1000000, .f32⟩
  | .hbm, ⟨77, _⟩ => ⟨S16x16, .f32⟩
  | .hbm, ⟨78, _⟩ => ⟨S16x1, .f32⟩
  | .hbm, ⟨79, _⟩ => ⟨S16x16, .f32⟩
  | .hbm, ⟨80, _⟩ => ⟨S16x16, .f32⟩
  | .hbm, ⟨81, _⟩ => ⟨S1000000x16, .f32⟩
  | .hbm, ⟨82, _⟩ => ⟨S_, .f32⟩
  | .hbm, ⟨83, _⟩ => ⟨S1000000, .f32⟩
  | .hbm, ⟨84, _⟩ => ⟨S1000000x1, .f32⟩
  | .hbm, ⟨85, _⟩ => ⟨S16x16, .f32⟩
  | .hbm, ⟨86, _⟩ => ⟨S1000000x16, .f32⟩
  | .hbm, ⟨87, _⟩ => ⟨S_, .f32⟩
  | .hbm, ⟨88, _⟩ => ⟨S1000000x16, .f32⟩
  | .hbm, ⟨89, _⟩ => ⟨S1000000x16, .f32⟩
  | .hbm, ⟨90, _⟩ => ⟨S1000000x16, .f32⟩
  | .hbm, ⟨91, _⟩ => ⟨S1000000x16, .f32⟩
  | .hbm, ⟨92, _⟩ => ⟨S16x16, .f32⟩
  | .hbm, ⟨93, _⟩ => ⟨S_, .f32⟩
  | .hbm, ⟨94, _⟩ => ⟨S16, .f32⟩
  | .hbm, ⟨95, _⟩ => ⟨S1x16, .f32⟩
  | .hbm, ⟨96, _⟩ => ⟨S1000000x16, .f32⟩
  | .hbm, ⟨97, _⟩ => ⟨S1000000x16, .f32⟩
  | .hbm, ⟨98, _⟩ => ⟨S1000000, .f32⟩
  | .hbm, ⟨99, _⟩ => ⟨S1000000x1, .f32⟩
  | .hbm, ⟨100, _⟩ => ⟨S1000000x16, .f32⟩
  | .hbm, ⟨101, _⟩ => ⟨S1000000x16, .f32⟩
  | .hbm, ⟨102, _⟩ => ⟨S1000000x16, .f32⟩
  | .hbm, ⟨103, _⟩ => ⟨S_, .f32⟩
  | .hbm, ⟨104, _⟩ => ⟨S16, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S16, .f32⟩
  | .hbm, ⟨109, _⟩ => ⟨S16, .f32⟩
  | .hbm, ⟨110, _⟩ => ⟨S16x1, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_14 : Ref sig .tc := ⟨.hbm, 103, rfl⟩
abbrev main_v83 : Ref sig .tc := ⟨.hbm, 104, rfl⟩
abbrev main_cst_15 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]

class Facts₀ : Prop where
  shapeCasts_S1000000x1_S1000000 : S1000000x1.ShapeCasts S1000000
  shapeCasts_S16x1_S16 : S16x1.ShapeCasts S16
  reducesTo_S1000000x16_S1000000_d1 : S1000000x16.ReducesTo [1] S1000000
  h_S_ : 0 < S_.numel
  bcast_S1000000_S1000000x1_0 : S1000000.BroadcastsInDim S1000000x1 (![0] : Fin 1 → Fin S1000000x1.rank)
  transposes_S16x16_S16x16_1_0 : S16x16.Transposes [1, 0] S16x16
  bcast_S_S1000000x16 : S_.BroadcastsInDim S1000000x16 (![] : Fin 0 → Fin S1000000x16.rank)
  bcast_S1000000x1_S1000000x16_0_1 : S1000000x1.BroadcastsInDim S1000000x16 (![0, 1] : Fin 2 → Fin S1000000x16.rank)
  reducesTo_S16x16_S16_d1 : S16x16.ReducesTo [1] S16
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000 : S_.BroadcastsInDim S1000000 (![] : Fin 0 → Fin S1000000.rank)
  reducesTo_S1000000x16_S16_d0 : S1000000x16.ReducesTo [0] S16
  bcast_S_S16 : S_.BroadcastsInDim S16 (![] : Fin 0 → Fin S16.rank)
  transposes_S1000000x16_S16x1000000_1_0 : S1000000x16.Transposes [1, 0] S16x1000000
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  dot_S1000000x16_S16x16_S1000000x16_1_0_0_1_n_n_wf : DotDims.WF S1000000x16 S16x16 S1000000x16 [1] [0] [0] [1] [] []
  dot_S16x1000000_S1000000x16_S16x16_1_0_0_1_n_n_wf : DotDims.WF S16x1000000 S1000000x16 S16x16 [1] [0] [0] [1] [] []

variable [Facts₀]

def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S16x1000000_S1000000x16_S16x16_1_0_0_1_n_n : DotDims S16x1000000 S1000000x16 S16x16 where
  lhsContracting := [1]
  rhsContracting := [0]
  lhsNonContracting := [0]
  rhsNonContracting := [1]
  lhsBatch := []
  rhsBatch := []
  wf := dot_S16x1000000_S1000000x16_S16x16_1_0_0_1_n_n_wf

class Facts : Prop extends Facts₀ where

variable [Facts]
-- ==== Proof.EndState.lean ====
/-
  The idealized kernel's run with its four result buffers NAMED.

  The program is three stretches of host operations around two launched regions. Its run threads one description of
  the TensorCore's buffers through the five segments: the contents at launch, after the first stretch, after the
  first region (its arrays at what the write-backs leave, everything else untouched), after the second stretch, after
  the second region, and after the last stretch. Every weakly fair execution ends in a state whose every unscoped
  buffer holds that last description's contents. Here the final state is read at the four results as well as at the
  five arguments; the arguments walk back through the description to the launch memory, the results stay at the last
  description for the value proof to open.
-/
import proofs.«144664_j31903017074980_2_alg».proof.Proof.Gen.KernelIdeal.Frame

set_option maxRecDepth 16384

noncomputable section

namespace Cert.KernelIdeal.EndState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the contents
    the last description gives it and each argument as launched. -/
theorem run : θ_run defs (onTc (τ := τ) (main (F := F))) ⟨m, fun _ => 0, ρ⟩ (fun r => ∀ c : Dev nD,
      r.2.mem ((c.tc : Thread nD τ).loc main_v1_0) = W5 m ρ c (Proc.devRef .tc main_v1_0)
      ∧ r.2.mem ((c.tc : Thread nD τ).loc main_v4) = W5 m ρ c (Proc.devRef .tc main_v4)
      ∧ r.2.mem ((c.tc : Thread nD τ).loc main_v7) = W5 m ρ c (Proc.devRef .tc main_v7)
      ∧ r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v1_0 (by decide)),
       h c _ (mem_uc main_v4 (by decide)),
       h c _ (mem_uc main_v7 (by decide)),
       h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.EndState

end
-- ==== Proof.HostReads.lean ====
/-
  The buffers between the segments, read back.

  The program is: a reshape of the weights to a row; the first launched region (it writes the responsibilities, the row
  of their column sums and the square array of responsibility-weighted coordinate sums); seven host operations (the
  column sums as a vector `s`, the new weights `s / N`, the new centres: the weighted sums divided row by row by `s`);
  the second launched region (it reads the new centres and writes the row of spreads); seven host operations (the new
  log-variances `log (spread / (16 · s))` as a column).
  Each result buffer's final contents are therefore a short host term over the arrays the two regions leave, and each
  array a region reads is an argument as launched, the reshaped weights, or the new centres. No buffer is written twice.
-/
import proofs.«144664_j31903017074980_2_alg».proof.Proof.Gen.KernelIdeal.Frame
import Idealize.ShloMosaic.Lib.StableHlo.Run

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.HostReads

open Cert.KernelIdeal Cert.KernelIdeal.Gen Idealize.ShloMosaic.StableHlo

variable {F : FTy → Type} [FloatOps F]
variable (m : (ℓ : Loc nD τ sig) → Buf (Elt F) ℓ) (ρ : Dev nD → PrngReg)

/-! ## What the first region finds -/

theorem entry0_arg0 (c : Dev nD) : V1 m ρ c main_arg0 = m ((c : Thread nD τ).loc main_arg0) := by
  show StableHlo.after hostOps0 (W0 m ρ c) (Proc.devRef .tc main_arg0) = _
  after_results
theorem entry0_arg1 (c : Dev nD) : V1 m ρ c main_arg1 = m ((c : Thread nD τ).loc main_arg1) := by
  show StableHlo.after hostOps0 (W0 m ρ c) (Proc.devRef .tc main_arg1) = _
  after_results
theorem entry0_arg3 (c : Dev nD) : V1 m ρ c main_arg3 = m ((c : Thread nD τ).loc main_arg3) := by
  show StableHlo.after hostOps0 (W0 m ρ c) (Proc.devRef .tc main_arg3) = _
  after_results
theorem entry0_arg4 (c : Dev nD) : V1 m ρ c main_arg4 = m ((c : Thread nD τ).loc main_arg4) := by
  show StableHlo.after hostOps0 (W0 m ρ c) (Proc.devRef .tc main_arg4) = _
  after_results
/-- The weights as a row. -/
theorem entry0_row (c : Dev nD) :
    V1 m ρ c main_v0 = shapeCast _ (m ((c : Thread nD τ).loc main_arg2)) shapeCasts_S16_S1x16 := by
  show StableHlo.after hostOps0 (W0 m ρ c) (Proc.devRef .tc main_v0) = _
  after_results
  rfl

/-! ## What the first region leaves, and the host operations after it -/

/-- The column sums of the responsibilities as a vector: the first region's second result, reshaped. -/
def colVec (c : Dev nD) : (⟨S16, .f32⟩ : BufTy).Contents (Elt F) :=
  shapeCast _ ((dat0 (V1 m ρ) c).arrAt 6 cfg0.N : (⟨S1x16, .f32⟩ : BufTy).Contents (Elt F)) shapeCasts_S1x16_S16

/-- The new centres: the first region's third result divided, row by row, by the column sums. -/
def centres (c : Dev nD) : (⟨S16x16, .f32⟩ : BufTy).Contents (Elt F) :=
  Host.divf ((dat0 (V1 m ρ) c).arrAt 7 cfg0.N : (⟨S16x16, .f32⟩ : BufTy).Contents (Elt F))
    (broadcastInDim S16x16 ![0, 1] bcast_S16x1_S16x16_0_1 (broadcastInDim S16x1 ![0] bcast_S16_S16x1_0 (colVec m ρ c)))

theorem mid_colVec (c : Dev nD) : W3 m ρ c (Proc.devRef .tc main_v2) = colVec m ρ c := by
  show StableHlo.after hostOps1 (W2 m ρ c) (Proc.devRef .tc main_v2) = _
  after_results
  unfold colVec
  exact congrArg (fun x => shapeCast _ x shapeCasts_S1x16_S16) (W2_arr m ρ c 6)

theorem mid_centres (c : Dev nD) : W3 m ρ c (Proc.devRef .tc main_v7) = centres m ρ c := by
  show StableHlo.after hostOps1 (W2 m ρ c) (Proc.devRef .tc main_v7) = _
  after_results
  unfold centres colVec
  rw [W2_arr m ρ c 7, W2_arr m ρ c 6]
  rfl

theorem mid_weights (c : Dev nD) : W3 m ρ c (Proc.devRef .tc main_v4)
    = Host.divf (colVec m ρ c) (broadcastInDim S16 ![] bcast_S_S16 (constant S_ .f32 0x49742400#32)) := by
  show StableHlo.after hostOps1 (W2 m ρ c) (Proc.devRef .tc main_v4) = _
  after_results
  unfold colVec
  rw [W2_arr m ρ c 6]
  rfl

theorem mid_resp (c : Dev nD) : W3 m ρ c (Proc.devRef .tc main_v1_0) = (dat0 (V1 m ρ) c).arrAt 5 cfg0.N := by
  show StableHlo.after hostOps1 (W2 m ρ c) (Proc.devRef .tc main_v1_0) = _
  after_results
  exact W2_arr m ρ c 5

/-! ## What the second region finds -/

theorem entry1_arg0 (c : Dev nD) : V3 m ρ c main_arg0 = m ((c : Thread nD τ).loc main_arg0) := by
  show StableHlo.after hostOps1 (W2 m ρ c) (Proc.devRef .tc main_arg0) = _
  after_results
  exact (W2_arr m ρ c 0).trans (((dat0 (V1 m ρ) c).arrAt_in 0 rfl _).trans ((A_eq0 (V1 m ρ) c 0).trans (entry0_arg0 m ρ c)))
theorem entry1_arg1 (c : Dev nD) : V3 m ρ c main_arg1 = m ((c : Thread nD τ).loc main_arg1) := by
  show StableHlo.after hostOps1 (W2 m ρ c) (Proc.devRef .tc main_arg1) = _
  after_results
  exact (W2_arr m ρ c 1).trans (((dat0 (V1 m ρ) c).arrAt_in 1 rfl _).trans ((A_eq0 (V1 m ρ) c 1).trans (entry0_arg1 m ρ c)))
theorem entry1_row (c : Dev nD) :
    V3 m ρ c main_v0 = shapeCast _ (m ((c : Thread nD τ).loc main_arg2)) shapeCasts_S16_S1x16 := by
  show StableHlo.after hostOps1 (W2 m ρ c) (Proc.devRef .tc main_v0) = _
  after_results
  exact (W2_arr m ρ c 2).trans (((dat0 (V1 m ρ) c).arrAt_in 2 rfl _).trans ((A_eq0 (V1 m ρ) c 2).trans (entry0_row m ρ c)))
theorem entry1_arg3 (c : Dev nD) : V3 m ρ c main_arg3 = m ((c : Thread nD τ).loc main_arg3) := by
  show StableHlo.after hostOps1 (W2 m ρ c) (Proc.devRef .tc main_arg3) = _
  after_results
  exact (W2_arr m ρ c 3).trans (((dat0 (V1 m ρ) c).arrAt_in 3 rfl _).trans ((A_eq0 (V1 m ρ) c 3).trans (entry0_arg3 m ρ c)))
theorem entry1_arg4 (c : Dev nD) : V3 m ρ c main_arg4 = m ((c : Thread nD τ).loc main_arg4) := by
  show StableHlo.after hostOps1 (W2 m ρ c) (Proc.devRef .tc main_arg4) = _
  after_results
  exact (W2_arr m ρ c 4).trans (((dat0 (V1 m ρ) c).arrAt_in 4 rfl _).trans ((A_eq0 (V1 m ρ) c 4).trans (entry0_arg4 m ρ c)))
theorem entry1_centres (c : Dev nD) : V3 m ρ c main_v7 = centres m ρ c := mid_centres m ρ c

/-! ## The four results -/

/-- The responsibilities: what the first region's write-backs leave in its first result. -/
theorem final_resp (c : Dev nD) : W5 m ρ c (Proc.devRef .tc main_v1_0) = (dat0 (V1 m ρ) c).arrAt 5 cfg0.N := by
  show StableHlo.after hostOps2 (W4 m ρ c) (Proc.devRef .tc main_v1_0) = _
  after_results
  exact (W4_of_ne m ρ c main_v1_0 (by decide)).trans (mid_resp m ρ c)

/-- The new weights: the column sums divided by the number of points. -/
theorem final_weights (c : Dev nD) : W5 m ρ c (Proc.devRef .tc main_v4)
    = Host.divf (colVec m ρ c) (broadcastInDim S16 ![] bcast_S_S16 (constant S_ .f32 0x49742400#32)) := by
  show StableHlo.after hostOps2 (W4 m ρ c) (Proc.devRef .tc main_v4) = _
  after_results
  exact (W4_of_ne m ρ c main_v4 (by decide)).trans (mid_weights m ρ c)

/-- The new centres: an input of the second region, which leaves it as it found it. -/
theorem final_centres (c : Dev nD) : W5 m ρ c (Proc.devRef .tc main_v7) = centres m ρ c := by
  show StableHlo.after hostOps2 (W4 m ρ c) (Proc.devRef .tc main_v7) = _
  after_results
  exact (W4_arr m ρ c 5).trans (((dat1 (V3 m ρ) c).arrAt_in 5 rfl _).trans ((A_eq1 (V3 m ρ) c 5).trans (mid_centres m ρ c)))

/-- The new log-variances: the logarithm of the second region's result over sixteen times the column sums, as a column. -/
theorem final_logvar (c : Dev nD) : W5 m ρ c (Proc.devRef .tc main_v14)
    = broadcastInDim S16x1 ![0] bcast_S16_S16x1_0 (Host.log (Host.divf
        (shapeCast _ ((dat1 (V3 m ρ) c).arrAt 6 cfg1.N : (⟨S1x16, .f32⟩ : BufTy).Contents (Elt F)) shapeCasts_S1x16_S16)
        (mulf (broadcastInDim S16 ![] bcast_S_S16 (constant S_ .f32 0x41800000#32)) (colVec m ρ c)))) := by
  show StableHlo.after hostOps2 (W4 m ρ c) (Proc.devRef .tc main_v14) = _
  after_results
  rw [W4_arr m ρ c 6, W4_of_ne m ρ c main_v2 (by decide), mid_colVec m ρ c]
  rfl

end Cert.KernelIdeal.HostReads

end
-- ==== Proof.Pieces.lean ====
/-
  What one grid point's body leaves in each output's staging buffer, as a pure function of what it loaded.

  At a grid point the body of the first launched function loads a block of 5000 rows of the points' coordinates, the
  matching block of their log-variances and the three small whole arrays, and performs three stores, each covering its
  whole buffer: the block of responsibilities; the running column sums, read back and added to; the running
  responsibility-weighted sums of the coordinates, read back and added to. At the first grid point it first stores zeros
  in the two running buffers, so what it reads back there are those zeros; at every later point it reads back what the
  point before left. The body of the second launched function is the same with one running buffer.
  Each store covers the buffer it writes, so what the buffer holds afterwards is the last store's value; each load reads
  a whole buffer, so it reads that buffer's contents.
-/
import proofs.«144664_j31903017074980_2_alg».proof.Proof.Gen.KernelIdeal.Frame
import Idealize.ShloMosaic.Lib.Pipeline.Value

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Pieces

open Cert.KernelIdeal Cert.KernelIdeal.Gen

variable {F : FTy → Type} [FloatOps F]

/-- The zero offsets of a store or load at the origin of a rank-two buffer. -/
theorem hz : (![0, 0] : Fin 2 → Nat) = fun _ => 0 := funext fun a => by fin_cases a <;> rfl

/-! ## The first launched function -/

/-- A later point leaves the block of responsibilities of the rows it loaded. -/
theorem later_resp (c : Dev nD) (i : grid0.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S5000x16 .f32) (h6 : a6.IsWhole) (a7 : Memref sig .tc .vmem S1x16 .f32) (h7 : a7.IsWhole) (a8 : Memref sig .tc .vmem S16x16 .f32) (h8 : a8.IsWhole) (hc : ¬cond0_0 i) (x0 : Vec F S5000x16 .f32) (x1 : Vec F S5000x1 .f32) (x2 : Vec F S1x16 .f32) (x3 : Vec F S16x16 .f32) (x4 : Vec F S16x1 .f32) (xo6 : Vec F S1x16 .f32) (xo7 : Vec F S16x16 .f32) :
    out0_B_5 c i a1 h1 a2 h2 a3 h3 a4 h4 a5 h5 a6 h6 a7 h7 a8 h8 hc x0 x1 x2 x3 x4 xo6 xo7 = k0_pay1 (k0_pay7 x2) (k0_pay8 x0 x3) (k0_pay9 x4) (k0_pay10 x1 x4) (k0_pay11 x1 x4) := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, View.ld_unit_zero (S := S5000x16) hz, View.ld_unit_zero (S := S5000x1) hz, View.ld_unit_zero (S := S1x16) hz, View.ld_unit_zero (S := S16x16) hz, View.ld_unit_zero (S := S16x1) hz]

/-- A later point adds the block's column sums to what the point before left. -/
theorem later_colSum (c : Dev nD) (i : grid0.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S5000x16 .f32) (h6 : a6.IsWhole) (a7 : Memref sig .tc .vmem S1x16 .f32) (h7 : a7.IsWhole) (a8 : Memref sig .tc .vmem S16x16 .f32) (h8 : a8.IsWhole) (hc : ¬cond0_0 i) (x0 : Vec F S5000x16 .f32) (x1 : Vec F S5000x1 .f32) (x2 : Vec F S1x16 .f32) (x3 : Vec F S16x16 .f32) (x4 : Vec F S16x1 .f32) (xo6 : Vec F S1x16 .f32) (xo7 : Vec F S16x16 .f32) :
    out0_B_6 c i a1 h1 a2 h2 a3 h3 a4 h4 a5 h5 a6 h6 a7 h7 a8 h8 hc x0 x1 x2 x3 x4 xo6 xo7 = k0_pay2 (k0_pay7 x2) (k0_pay8 x0 x3) (k0_pay9 x4) (k0_pay10 x1 x4) (k0_pay11 x1 x4) xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, View.ld_unit_zero (S := S5000x16) hz, View.ld_unit_zero (S := S5000x1) hz, View.ld_unit_zero (S := S1x16) hz, View.ld_unit_zero (S := S16x16) hz, View.ld_unit_zero (S := S16x1) hz]

/-- A later point adds the block's responsibility-weighted coordinate sums to what the point before left. -/
theorem later_weighted (c : Dev nD) (i : grid0.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S5000x16 .f32) (h6 : a6.IsWhole) (a7 : Memref sig .tc .vmem S1x16 .f32) (h7 : a7.IsWhole) (a8 : Memref sig .tc .vmem S16x16 .f32) (h8 : a8.IsWhole) (hc : ¬cond0_0 i) (x0 : Vec F S5000x16 .f32) (x1 : Vec F S5000x1 .f32) (x2 : Vec F S1x16 .f32) (x3 : Vec F S16x16 .f32) (x4 : Vec F S16x1 .f32) (xo6 : Vec F S1x16 .f32) (xo7 : Vec F S16x16 .f32) :
    out0_B_7 c i a1 h1 a2 h2 a3 h3 a4 h4 a5 h5 a6 h6 a7 h7 a8 h8 hc x0 x1 x2 x3 x4 xo6 xo7 = k0_pay3 x0 (k0_pay7 x2) (k0_pay8 x0 x3) (k0_pay9 x4) (k0_pay10 x1 x4) (k0_pay11 x1 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h8.read_unread, View.ld_unit_zero (S := S5000x16) hz, View.ld_unit_zero (S := S5000x1) hz, View.ld_unit_zero (S := S1x16) hz, View.ld_unit_zero (S := S16x16) hz, View.ld_unit_zero (S := S16x1) hz]

/-- The first point leaves the block of responsibilities of the rows it loaded. -/
theorem first_resp (c : Dev nD) (i : grid0.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S5000x16 .f32) (h6 : a6.IsWhole) (a7 : Memref sig .tc .vmem S1x16 .f32) (h7 : a7.IsWhole) (a8 : Memref sig .tc .vmem S16x16 .f32) (h8 : a8.IsWhole) (hc : cond0_0 i) (x0 : Vec F S5000x16 .f32) (x1 : Vec F S5000x1 .f32) (x2 : Vec F S1x16 .f32) (x3 : Vec F S16x16 .f32) (x4 : Vec F S16x1 .f32) :
    out0_A_5 c i a1 h1 a2 h2 a3 h3 a4 h4 a5 h5 a6 h6 a7 h7 a8 h8 hc x0 x1 x2 x3 x4 = k0_pay1 (k0_pay7 x2) (k0_pay8 x0 x3) (k0_pay9 x4) (k0_pay10 x1 x4) (k0_pay11 x1 x4) := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S5000x16) hz, View.ld_unit_zero (S := S5000x1) hz, View.ld_unit_zero (S := S1x16) hz, View.ld_unit_zero (S := S16x16) hz, View.ld_unit_zero (S := S16x1) hz]

/-- The first point adds the block's column sums to the zeros it has just stored. -/
theorem first_colSum (c : Dev nD) (i : grid0.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S5000x16 .f32) (h6 : a6.IsWhole) (a7 : Memref sig .tc .vmem S1x16 .f32) (h7 : a7.IsWhole) (a8 : Memref sig .tc .vmem S16x16 .f32) (h8 : a8.IsWhole) (hc : cond0_0 i) (x0 : Vec F S5000x16 .f32) (x1 : Vec F S5000x1 .f32) (x2 : Vec F S1x16 .f32) (x3 : Vec F S16x16 .f32) (x4 : Vec F S16x1 .f32) :
    out0_A_6 c i a1 h1 a2 h2 a3 h3 a4 h4 a5 h5 a6 h6 a7 h7 a8 h8 hc x0 x1 x2 x3 x4 = k0_pay2 (k0_pay7 x2) (k0_pay8 x0 x3) (k0_pay9 x4) (k0_pay10 x1 x4) (k0_pay11 x1 x4) k0_pay4 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x16) hz, View.readCov_unit_zero (S := S1x16) _ hz]
  simp only [View.readAt_eq_ld, h1.read_unread, h2.read_unread, h3.read_unread, h4.read_unread, h5.read_unread, View.ld_unit_zero (S := S5000x16) hz, View.ld_unit_zero (S := S5000x1) hz, View.ld_unit_zero (S := S1x16) hz, View.ld_unit_zero (S := S16x16) hz, View.ld_unit_zero (S := S16x1) hz]

/-- The first point adds the block's responsibility-weighted coordinate sums to the zeros it has just stored. -/
theorem first_weighted (c : Dev nD) (i : grid0.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S5000x16 .f32) (h6 : a6.IsWhole) (a7 : Memref sig .tc .vmem S1x16 .f32) (h7 : a7.IsWhole) (a8 : Memref sig .tc .vmem S16x16 .f32) (h8 : a8.IsWhole) (hc : cond0_0 i) (x0 : Vec F S5000x16 .f32) (x1 : Vec F S5000x1 .f32) (x2 : Vec F S1x16 .f32) (x3 : Vec F S16x16 .f32) (x4 : Vec F S16x1 .f32) :
    out0_A_7 c i a1 h1 a2 h2 a3 h3 a4 h4 a5 h5 a6 h6 a7 h7 a8 h8 hc x0 x1 x2 x3 x4 = k0_pay3 x0 (k0_pay7 x2) (k0_pay8 x0 x3) (k0_pay9 x4) (k0_pay10 x1 x4) (k0_pay11 x1 x4) k0_pay5 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S16x16) hz, View.readCov_unit_zero (S := S16x16) _ hz]
  simp only [View.readAt_eq_ld, h1.read_unread, h2.read_unread, h3.read_unread, h4.read_unread, h5.read_unread, View.ld_unit_zero (S := S5000x16) hz, View.ld_unit_zero (S := S5000x1) hz, View.ld_unit_zero (S := S1x16) hz, View.ld_unit_zero (S := S16x16) hz, View.ld_unit_zero (S := S16x1) hz]

/-! ## The second launched function -/

/-- A later point adds the block's column sums of responsibility times spread to what the point before left. -/
theorem later_spread (c : Dev nD) (i : grid1.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S16x16 .f32) (h6 : a6.IsWhole) (a7 : Memref sig .tc .vmem S1x16 .f32) (h7 : a7.IsWhole) (hc : ¬cond1_0 i) (x0 : Vec F S5000x16 .f32) (x1 : Vec F S5000x1 .f32) (x2 : Vec F S1x16 .f32) (x3 : Vec F S16x16 .f32) (x4 : Vec F S16x1 .f32) (x5 : Vec F S16x16 .f32) (xo6 : Vec F S1x16 .f32) :
    out1_B_6 c i a1 h1 a2 h2 a3 h3 a4 h4 a5 h5 a6 h6 a7 h7 hc x0 x1 x2 x3 x4 x5 xo6 = k1_pay9 x0 x1 (k1_pay3 x2) (k1_pay4 x5) (k1_pay5 x0) (k1_pay6 x0 x3) (k1_pay7 x4) (k1_pay8 x1 x4) xo6 := by
  unfold out1_B_6
  rw [View.read_writes_eq_canon _ _ _ (cover1_B_6 c i a1 h1 a2 h2 a3 h3 a4 h4 a5 h5 a6 h6 a7 h7 hc x0 x1 x2 x3 x4 x5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x16) hz, View.ld_unit_zero (S := S5000x1) hz, View.ld_unit_zero (S := S1x16) hz, View.ld_unit_zero (S := S16x16) hz, View.ld_unit_zero (S := S16x1) hz]

/-- The first point adds them to the zeros it has just stored. -/
theorem first_spread (c : Dev nD) (i : grid1.Coords) (a1 : Memref sig .tc .vmem S5000x16 .f32) (h1 : a1.IsWhole) (a2 : Memref sig .tc .vmem S5000x1 .f32) (h2 : a2.IsWhole) (a3 : Memref sig .tc .vmem S1x16 .f32) (h3 : a3.IsWhole) (a4 : Memref sig .tc .vmem S16x16 .f32) (h4 : a4.IsWhole) (a5 : Memref sig .tc .vmem S16x1 .f32) (h5 : a5.IsWhole) (a6 : Memref sig .tc .vmem S16x16 .f32) (h6 : a6.IsWhole) (a7 : Memref sig .tc .vmem S1x16 .f32) (h7 : a7.IsWhole) (hc : cond1_0 i) (x0 : Vec F S5000x16 .f32) (x1 : Vec F S5000x1 .f32) (x2 : Vec F S1x16 .f32) (x3 : Vec F S16x16 .f32) (x4 : Vec F S16x1 .f32) (x5 : Vec F S16x16 .f32) :
    out1_A_6 c i a1 h1 a2 h2 a3 h3 a4 h4 a5 h5 a6 h6 a7 h7 hc x0 x1 x2 x3 x4 x5 = k1_pay9 x0 x1 (k1_pay3 x2) (k1_pay4 x5) (k1_pay5 x0) (k1_pay6 x0 x3) (k1_pay7 x4) (k1_pay8 x1 x4) k1_pay1 := by
  unfold out1_A_6
  rw [View.read_writes_eq_canon _ _ _ (cover1_A_6 c i a1 h1 a2 h2 a3 h3 a4 h4 a5 h5 a6 h6 a7 h7 hc x0 x1 x2 x3 x4 x5)]
  unfold kernelRun1_A
  dsimp only
  sl_unfold_words
  rw [View.canon_cons_unit_zero (S := S1x16) hz, View.readCov_unit_zero (S := S1x16) _ hz]
  simp only [View.readAt_eq_ld, h1.read_unread, h2.read_unread, h3.read_unread, h4.read_unread, h5.read_unread, h6.read_unread, View.ld_unit_zero (S := S5000x16) hz, View.ld_unit_zero (S := S5000x1) hz, View.ld_unit_zero (S := S1x16) hz, View.ld_unit_zero (S := S16x16) hz, View.ld_unit_zero (S := S16x1) hz]

end Cert.KernelIdeal.Pieces

end
-- ==== Proof.BlockReads.lean ====
/-
  A window's block, entry by entry.

  Both launched functions walk the million points in 200 blocks of 5000 rows: at grid point `t` the windows over the
  points' coordinates and log-variances (and, in the first function, over the responsibilities it writes) stage rows
  5000·t … 5000·t + 4999, so entry (r, q) of the staged block is entry (5000·t + r, q) of the array. The windows over the
  small arrays (the weights row, the centres, the log-variances column, the running sums, the new centres) stage the
  whole array at every point: entry (a, b) of the block is entry (a, b) of the array.
-/
import proofs.«144664_j31903017074980_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.BlockReads

open Cert.KernelIdeal Cert.KernelIdeal.Gen Idealize.ShloMosaic.ValueIdx

variable {F : FTy → Type} [FloatOps F]
variable (V : (c : Dev nD) → (b : Ref sig .tc) → Buf (Elt F) ((c : Thread nD τ).loc b))

/-- Row `r` of block `t` is a row of the array. -/
theorem row_lt0 (t : Fin cfg0.N) (r : Fin 5000) : t.val * 5000 + r.val < 1000000 := by
  have h1 : t.val < 200 := lt_of_lt_of_eq t.isLt (show cfg0.N = 200 from N_0)
  have h2 := r.isLt
  omega
theorem row_lt1 (t : Fin cfg1.N) (r : Fin 5000) : t.val * 5000 + r.val < 1000000 := by
  have h1 : t.val < 200 := lt_of_lt_of_eq t.isLt (show cfg1.N = 200 from N_1)
  have h2 := r.isLt
  omega

/-! ## The first launched function's windows -/

/-- The block index of the row windows is the grid point, of the others zero: decided once over the 200 points. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem coords0 (c : Dev nD) (t : Fin cfg0.N) (r : Fin 5000) (q : Fin 16) :
    (iblk0 V c 0 t : Vec F S5000x16 .f32) (ix2 r q) = V c main_arg0 (ix2 ⟨t.val * 5000 + r.val, row_lt0 t r⟩ q) := by
  unfold iblk0
  rw [View.read_apply]
  show V c main_arg0 _ = V c main_arg0 _
  congr 1
  funext a
  apply Fin.ext
  match a with
  | ⟨0, _⟩ => show win0_0.index t 0 * 5000 + 1 * r.val = t.val * 5000 + r.val; rw [(index0 t).1]; omega
  | ⟨1, _⟩ => show win0_0.index t 1 * 16 + 1 * q.val = q.val; rw [(index0 t).2.1]; omega

theorem logvar0 (c : Dev nD) (t : Fin cfg0.N) (r : Fin 5000) (q : Fin 1) :
    (iblk0 V c 1 t : Vec F S5000x1 .f32) (ix2 r q) = V c main_arg1 (ix2 ⟨t.val * 5000 + r.val, row_lt0 t r⟩ q) := by
  unfold iblk0
  rw [View.read_apply]
  show V c main_arg1 _ = V c main_arg1 _
  congr 1
  funext a
  apply Fin.ext
  match a with
  | ⟨0, _⟩ => show win0_1.index t 0 * 5000 + 1 * r.val = t.val * 5000 + r.val; rw [(index0 t).2.2.1]; omega
  | ⟨1, _⟩ => show win0_1.index t 1 * 1 + 1 * q.val = q.val; rw [(index0 t).2.2.2.1]; omega

theorem weights0 (c : Dev nD) (t : Fin cfg0.N) (p : Fin 1) (q : Fin 16) :
    (iblk0 V c 2 t : Vec F S1x16 .f32) (ix2 p q) = V c main_v0 (ix2 p q) := by
  unfold iblk0
  rw [View.read_apply]
  show V c main_v0 _ = V c main_v0 _
  congr 1
  funext a
  apply Fin.ext
  match a with
  | ⟨0, _⟩ => show win0_2.index t 0 * 1 + 1 * p.val = p.val; rw [(index0 t).2.2.2.2.1]; omega
  | ⟨1, _⟩ => show win0_2.index t 1 * 16 + 1 * q.val = q.val; rw [(index0 t).2.2.2.2.2.1]; omega

theorem centres0 (c : Dev nD) (t : Fin cfg0.N) (p : Fin 16) (q : Fin 16) :
    (iblk0 V c 3 t : Vec F S16x16 .f32) (ix2 p q) = V c main_arg3 (ix2 p q) := by
  unfold iblk0
  rw [View.read_apply]
  show V c main_arg3 _ = V c main_arg3 _
  congr 1
  funext a
  apply Fin.ext
  match a with
  | ⟨0, _⟩ => show win0_3.index t 0 * 16 + 1 * p.val = p.val; rw [(index0 t).2.2.2.2.2.2.1]; omega
  | ⟨1, _⟩ => show win0_3.index t 1 * 16 + 1 * q.val = q.val; rw [(index0 t).2.2.2.2.2.2.2.1]; omega

theorem clusterVar0 (c : Dev nD) (t : Fin cfg0.N) (p : Fin 16) (q : Fin 1) :
    (iblk0 V c 4 t : Vec F S16x1 .f32) (ix2 p q) = V c main_arg4 (ix2 p q) := by
  unfold iblk0
  rw [View.read_apply]
  show V c main_arg4 _ = V c main_arg4 _
  congr 1
  funext a
  apply Fin.ext
  match a with
  | ⟨0, _⟩ => show win0_4.index t 0 * 16 + 1 * p.val = p.val; rw [(index0 t).2.2.2.2.2.2.2.2.1]; omega
  | ⟨1, _⟩ => show win0_4.index t 1 * 1 + 1 * q.val = q.val; rw [(index0 t).2.2.2.2.2.2.2.2.2.1]; omega

/-! ## The first launched function's output windows -/

/-- Entry (r, q) of the responsibilities block of point `t` sits at (5000·t + r, q) of the array. -/
theorem emb_resp (t : Fin cfg0.N) (r : Fin 5000) (q : Fin 16) :
    ((cfg0.win 5).blk t).view.emb (ix2 r q : S5000x16.Idx) = (ix2 ⟨t.val * 5000 + r.val, row_lt0 t r⟩ q : S1000000x16.Idx) := by
  funext a
  apply Fin.ext
  match a with
  | ⟨0, _⟩ => show win0_5.index t 0 * 5000 + 1 * r.val = t.val * 5000 + r.val; rw [(index0 t).2.2.2.2.2.2.2.2.2.2.1]; omega
  | ⟨1, _⟩ => show win0_5.index t 1 * 16 + 1 * q.val = q.val; rw [(index0 t).2.2.2.2.2.2.2.2.2.2.2.1]; omega

/-- An index of the responsibilities array is in point `t`'s block iff each coordinate is in the block's range. -/
theorem mem_blk_resp (t : Fin cfg0.N) (i : S1000000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v1_0).slice (win0_5.rect t)).set ↔ _
  rw [View.set_slice_whole, Rect.mem_set_unit]
  exact Iff.rfl

/-- Every row of the responsibilities array is written back by the point whose block holds it: row `i` by point `i / 5000`. -/
theorem cover_resp (i : S1000000x16.Idx) :
    ∃ t : Fin cfg0.N, (cfg0.win 5).flush t = true ∧ i ∈ ((cfg0.win 5).blk t).view.set := by
  have hi0 : (i 0).val < 1000000 := (i 0).isLt
  have hi1 : (i 1).val < 16 := (i 1).isLt
  have hN : cfg0.N = 200 := N_0
  refine ⟨⟨(i 0).val / 5000, by rw [hN]; omega⟩, flush0_5 _, ?_⟩
  rw [mem_blk_resp]
  intro a
  match a with
  | ⟨0, _⟩ =>
    show win0_5.index ⟨(i 0).val / 5000, _⟩ 0 * 5000 ≤ (i 0).val ∧ (i 0).val < win0_5.index ⟨(i 0).val / 5000, _⟩ 0 * 5000 + 5000
    rw [(index0 _).2.2.2.2.2.2.2.2.2.2.1]
    dsimp only
    omega
  | ⟨1, _⟩ =>
    show win0_5.index ⟨(i 0).val / 5000, _⟩ 1 * 16 ≤ (i 1).val ∧ (i 1).val < win0_5.index ⟨(i 0).val / 5000, _⟩ 1 * 16 + 16
    rw [(index0 _).2.2.2.2.2.2.2.2.2.2.2.1]
    omega

/-- The window over the column-sum row stages the whole row: reading its block out of an array gives the array. -/
theorem whole_col (G : Buf (Elt F) ((cfg0.win 6).arr.view.loc ((0 : Dev nD).tc : Thread nD τ))) (t : Fin cfg0.N) (p : Fin 1) (q : Fin 16) :
    (((cfg0.win 6).blk t).view.read (Elt F) G : Vec F S1x16 .f32) (ix2 p q) = (G : Vec F S1x16 .f32) (ix2 p q) := by
  rw [View.read_apply]
  show (G : Vec F S1x16 .f32) _ = (G : Vec F S1x16 .f32) _
  congr 1
  funext a
  apply Fin.ext
  match a with
  | ⟨0, _⟩ => show win0_6.index t 0 * 1 + 1 * p.val = p.val; rw [(index0 t).2.2.2.2.2.2.2.2.2.2.2.2.1]; omega
  | ⟨1, _⟩ => show win0_6.index t 1 * 16 + 1 * q.val = q.val; rw [(index0 t).2.2.2.2.2.2.2.2.2.2.2.2.2.1]; omega

/-- The window over the weighted-sum array stages the whole array. -/
theorem whole_weighted (G : Buf (Elt F) ((cfg0.win 7).arr.view.loc ((0 : Dev nD).tc : Thread nD τ))) (t : Fin cfg0.N) (p : Fin 16) (q : Fin 16) :
    (((cfg0.win 7).blk t).view.read (Elt F) G : Vec F S16x16 .f32) (ix2 p q) = (G : Vec F S16x16 .f32) (ix2 p q) := by
  rw [View.read_apply]
  show (G : Vec F S16x16 .f32) _ = (G : Vec F S16x16 .f32) _
  congr 1
  funext a
  apply Fin.ext
  match a with
  | ⟨0, _⟩ => show win0_7.index t 0 * 16 + 1 * p.val = p.val; rw [(index0 t).2.2.2.2.2.2.2.2.2.2.2.2.2.2.1]; omega
  | ⟨1, _⟩ => show win0_7.index t 1 * 16 + 1 * q.val = q.val; rw [(index0 t).2.2.2.2.2.2.2.2.2.2.2.2.2.2.2]; omega

/-- The whole column-sum row lies in the block of every point. -/
theorem mem_blk_col (t : Fin cfg0.N) (i : S1x16.Idx) : i ∈ ((cfg0.win 6).blk t).view.set := by
  show i ∈ ((View.whole main_v1_1).slice (win0_6.rect t)).set
  rw [View.set_slice_whole, Rect.mem_set_unit]
  have hi0 : (i 0).val < 1 := (i 0).isLt
  have hi1 : (i 1).val < 16 := (i 1).isLt
  intro a
  match a with
  | ⟨0, _⟩ => show win0_6.index t 0 * 1 ≤ (i 0).val ∧ (i 0).val < win0_6.index t 0 * 1 + 1; rw [(index0 t).2.2.2.2.2.2.2.2.2.2.2.2.1]; omega
  | ⟨1, _⟩ => show win0_6.index t 1 * 16 ≤ (i 1).val ∧ (i 1).val < win0_6.index t 1 * 16 + 16; rw [(index0 t).2.2.2.2.2.2.2.2.2.2.2.2.2.1]; omega

/-- The whole weighted-sum array lies in the block of every point. -/
theorem mem_blk_weighted (t : Fin cfg0.N) (i : S16x16.Idx) : i ∈ ((cfg0.win 7).blk t).view.set := by
  show i ∈ ((View.whole main_v1_2).slice (win0_7.rect t)).set
  rw [View.set_slice_whole, Rect.mem_set_unit]
  have hi0 : (i 0).val < 16 := (i 0).isLt
  have hi1 : (i 1).val < 16 := (i 1).isLt
  intro a
  match a with
  | ⟨0, _⟩ => show win0_7.index t 0 * 16 ≤ (i 0).val ∧ (i 0).val < win0_7.index t 0 * 16 + 16; rw [(index0 t).2.2.2.2.2.2.2.2.2.2.2.2.2.2.1]; omega
  | ⟨1, _⟩ => show win0_7.index t 1 * 16 ≤ (i 1).val ∧ (i 1).val < win0_7.index t 1 * 16 + 16; rw [(index0 t).2.2.2.2.2.2.2.2.2.2.2.2.2.2.2]; omega

/-! ## The second launched function's windows -/

/-- The block index of the row windows is the grid point, of the others zero: decided once over the 200 points. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem coords1 (c : Dev nD) (t : Fin cfg1.N) (p : Fin 5000) (q : Fin 16) :
    (iblk1 V c 0 t : Vec F S5000x16 .f32) (ix2 p q) = V c main_arg0 (ix2 ⟨t.val * 5000 + p.val, row_lt1 t p⟩ q) := by
  unfold iblk1
  rw [View.read_apply]
  show V c main_arg0 _ = V c main_arg0 _
  congr 1
  funext a
  apply Fin.ext
  match a with
  | ⟨0, _⟩ => show win1_0.index t 0 * 5000 + 1 * p.val = t.val * 5000 + p.val; rw [(index1 t).1]; omega
  | ⟨1, _⟩ => show win1_0.index t 1 * 16 + 1 * q.val = q.val; rw [(index1 t).2.1]; omega

theorem logvar1 (c : Dev nD) (t : Fin cfg1.N) (p : Fin 5000) (q : Fin 1) :
    (iblk1 V c 1 t : Vec F S5000x1 .f32) (ix2 p q) = V c main_arg1 (ix2 ⟨t.val * 5000 + p.val, row_lt1 t p⟩ q) := by
  unfold iblk1
  rw [View.read_apply]
  show V c main_arg1 _ = V c main_arg1 _
  congr 1
  funext a
  apply Fin.ext
  match a with
  | ⟨0, _⟩ => show win1_1.index t 0 * 5000 + 1 * p.val = t.val * 5000 + p.val; rw [(index1 t).2.2.1]; omega
  | ⟨1, _⟩ => show win1_1.index t 1 * 1 + 1 * q.val = q.val; rw [(index1 t).2.2.2.1]; omega

theorem weights1 (c : Dev nD) (t : Fin cfg1.N) (p : Fin 1) (q : Fin 16) :
    (iblk1 V c 2 t : Vec F S1x16 .f32) (ix2 p q) = V c main_v0 (ix2 p q) := by
  unfold iblk1
  rw [View.read_apply]
  show V c main_v0 _ = V c main_v0 _
  congr 1
  funext a
  apply Fin.ext
  match a with
  | ⟨0, _⟩ => show win1_2.index t 0 * 1 + 1 * p.val = p.val; rw [(index1 t).2.2.2.2.1]; omega
  | ⟨1, _⟩ => show win1_2.index t 1 * 16 + 1 * q.val = q.val; rw [(index1 t).2.2.2.2.2.1]; omega

theorem centres1 (c : Dev nD) (t : Fin cfg1.N) (p : Fin 16) (q : Fin 16) :
    (iblk1 V c 3 t : Vec F S16x16 .f32) (ix2 p q) = V c main_arg3 (ix2 p q) := by
  unfold iblk1
  rw [View.read_apply]
  show V c main_arg3 _ = V c main_arg3 _
  congr 1
  funext a
  apply Fin.ext
  match a with
  | ⟨0, _⟩ => show win1_3.index t 0 * 16 + 1 * p.val = p.val; rw [(index1 t).2.2.2.2.2.2.1]; omega
  | ⟨1, _⟩ => show win1_3.index t 1 * 16 + 1 * q.val = q.val; rw [(index1 t).2.2.2.2.2.2.2.1]; omega

theorem clusterVar1 (c : Dev nD) (t : Fin cfg1.N) (p : Fin 16) (q : Fin 1) :
    (iblk1 V c 4 t : Vec F S16x1 .f32) (ix2 p q) = V c main_arg4 (ix2 p q) := by
  unfold iblk1
  rw [View.read_apply]
  show V c main_arg4 _ = V c main_arg4 _
  congr 1
  funext a
  apply Fin.ext
  match a with
  | ⟨0, _⟩ => show win1_4.index t 0 * 16 + 1 * p.val = p.val; rw [(index1 t).2.2.2.2.2.2.2.2.1]; omega
  | ⟨1, _⟩ => show win1_4.index t 1 * 1 + 1 * q.val = q.val; rw [(index1 t).2.2.2.2.2.2.2.2.2.1]; omega

theorem newCentres1 (c : Dev nD) (t : Fin cfg1.N) (p : Fin 16) (q : Fin 16) :
    (iblk1 V c 5 t : Vec F S16x16 .f32) (ix2 p q) = V c main_v7 (ix2 p q) := by
  unfold iblk1
  rw [View.read_apply]
  show V c main_v7 _ = V c main_v7 _
  congr 1
  funext a
  apply Fin.ext
  match a with
  | ⟨0, _⟩ => show win1_5.index t 0 * 16 + 1 * p.val = p.val; rw [(index1 t).2.2.2.2.2.2.2.2.2.2.1]; omega
  | ⟨1, _⟩ => show win1_5.index t 1 * 16 + 1 * q.val = q.val; rw [(index1 t).2.2.2.2.2.2.2.2.2.2.2.1]; omega

/-- The window over the spread row stages the whole row. -/
theorem whole_spread (G : Buf (Elt F) ((cfg1.win 6).arr.view.loc ((0 : Dev nD).tc : Thread nD τ))) (t : Fin cfg1.N) (p : Fin 1) (q : Fin 16) :
    (((cfg1.win 6).blk t).view.read (Elt F) G : Vec F S1x16 .f32) (ix2 p q) = (G : Vec F S1x16 .f32) (ix2 p q) := by
  rw [View.read_apply]
  show (G : Vec F S1x16 .f32) _ = (G : Vec F S1x16 .f32) _
  congr 1
  funext a
  apply Fin.ext
  match a with
  | ⟨0, _⟩ => show win1_6.index t 0 * 1 + 1 * p.val = p.val; rw [(index1 t).2.2.2.2.2.2.2.2.2.2.2.2.1]; omega
  | ⟨1, _⟩ => show win1_6.index t 1 * 16 + 1 * q.val = q.val; rw [(index1 t).2.2.2.2.2.2.2.2.2.2.2.2.2]; omega

/-- The whole spread row lies in the block of every point. -/
theorem mem_blk_spread (t : Fin cfg1.N) (i : S1x16.Idx) : i ∈ ((cfg1.win 6).blk t).view.set := by
  show i ∈ ((View.whole main_v8).slice (win1_6.rect t)).set
  rw [View.set_slice_whole, Rect.mem_set_unit]
  have hi0 : (i 0).val < 1 := (i 0).isLt
  have hi1 : (i 1).val < 16 := (i 1).isLt
  intro a
  match a with
  | ⟨0, _⟩ => show win1_6.index t 0 * 1 ≤ (i 0).val ∧ (i 0).val < win1_6.index t 0 * 1 + 1; rw [(index1 t).2.2.2.2.2.2.2.2.2.2.2.2.1]; omega
  | ⟨1, _⟩ => show win1_6.index t 1 * 16 ≤ (i 1).val ∧ (i 1).val < win1_6.index t 1 * 16 + 16; rw [(index1 t).2.2.2.2.2.2.2.2.2.2.2.2.2]; omega

end Cert.KernelIdeal.BlockReads

end
-- ==== Proof.LibColumn.lean ====
/-
  Two layout operations read at an index, for a vector kept as a column: the reshape of an [a] array to an
  [a, 1] column, and the broadcast of an [a, 1] column over b columns.  (The row forms [a] → [1, a] and
  [1, b] → [a, b] are in the library; a sum with keepdims along the last axis produces the column forms.)
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to a column `[a, 1]` reads, at `(i, u)`, the operand at `i`, whatever the unit coordinate `u`:
    both positions have the same row-major rank. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.MixtureStep.lean ====
/-
  One expectation–maximisation step of a mixture of sixteen spherical Gaussians over a million points in sixteen
  dimensions, written index by index over the extended reals.

  For a point with coordinates `x` and log-variance `l`, and a cluster `k` with centre `M k`, log-variance `C k` and
  weight `w k`:
    * the squared distance to the centre is expanded as ‖x‖² − 2⟨x, M k⟩ + ‖M k‖² (`sqDist`);
    * the logit is  log (w k) − ½ · (16 · (C k − l) − 16 + eˡ · e^(−C k) + ‖x − M k‖² · e^(−C k))  (`logit`);
    * the responsibility is the softmax of the logits over the sixteen clusters, each logit shifted by the row's
      largest one before it is exponentiated, plus a fixed small constant (`resp`).
  The step's four results are the responsibilities themselves and three statistics of them summed over all the
  points: the new weights (the column sums divided by the number of points), the new centres (the responsibility-
  weighted sums of the points divided by the column sums) and the new log-variances (the logarithm of the
  responsibility-weighted sums of eˡ + ‖x − new centre‖², divided by sixteen times the column sums).

  Every sum here is a finite sum in an additive commutative monoid, so it may be split into blocks and the blocks
  added in any order; nothing in this file needs the summands to be finite.
-/
import Idealize.ShloMosaic.PureOps.Ideal
import Idealize.ShloMosaic.PureOps.Ideal.Laws
import Idealize.ShloMosaic.Lib.ValueIdx

noncomputable section

open scoped BigOperators

namespace Cert.MixtureStep

open Idealize.ShloMosaic

/-- The constants of the step, as the values their single-precision words denote: 2, 16, ½, the additive constant of
    the responsibilities, the number of points, and the value the row maximum starts from. -/
abbrev c2 : EReal := Ideal.ofBits .f32 0x40000000#32
abbrev c16 : EReal := Ideal.ofBits .f32 0x41800000#32
abbrev cHalf : EReal := Ideal.ofBits .f32 0x3F000000#32
abbrev cDet : EReal := Ideal.ofBits .f32 0x24E69595#32
abbrev cN : EReal := Ideal.ofBits .f32 0x49742400#32
abbrev cLow : EReal := Ideal.ofBits .f32 0xFF800000#32

/-- ‖x − M k‖² in its expanded form ‖x‖² − 2⟨x, M k⟩ + ‖M k‖². -/
def sqDist (M : Fin 16 → Fin 16 → EReal) (x : Fin 16 → EReal) (k : Fin 16) : EReal :=
  (∑ c : Fin 16, x c * x c) - c2 * (∑ c : Fin 16, x c * M k c) + ∑ c : Fin 16, M k c * M k c

/-- The logit of cluster `k` for one point: log-weight minus the divergence between the point's Gaussian and the
    cluster's. -/
def logit (w C : Fin 16 → EReal) (M : Fin 16 → Fin 16 → EReal) (x : Fin 16 → EReal) (l : EReal) (k : Fin 16) : EReal :=
  Ideal.log (w k)
    - cHalf * (c16 * (C k - l) - c16 + Ideal.exp l * Ideal.exp (-(C k)) + sqDist M x k * Ideal.exp (-(C k)))

/-- The largest of sixteen values, as the fold of `max` from the starting value. -/
def rowMax (z : Fin 16 → EReal) : EReal := (Finset.univ : Finset (Fin 16)).fold max cLow z

/-- The responsibility of cluster `k` for one point: the shifted softmax of the logits, plus the constant. -/
def resp (w C : Fin 16 → EReal) (M : Fin 16 → Fin 16 → EReal) (x : Fin 16 → EReal) (l : EReal) (k : Fin 16) : EReal :=
  Ideal.div (Ideal.exp (logit w C M x l k - rowMax (logit w C M x l)))
      (∑ k' : Fin 16, Ideal.exp (logit w C M x l k' - rowMax (logit w C M x l)))
    + cDet

/-- A starting value below which a fold of `max` never falls: taking `max` with it once more changes nothing. -/
theorem max_low_rowMax (z : Fin 16 → EReal) : max cLow (rowMax z) = rowMax z :=
  max_eq_right ((Finset.le_fold_max _).mpr (Or.inl le_rfl))

/-- Subtracting from zero is negation, on every extended real. -/
theorem zero_sub_eq_neg (y : EReal) : Ideal.ofBits .f32 0x00000000#32 - y = -y := by
  rw [Ideal.ofBits_zero_f32, sub_eq_add_neg, zero_add]

section Step

variable (w C : Fin 16 → EReal) (M : Fin 16 → Fin 16 → EReal)
variable (X : Fin 1000000 → Fin 16 → EReal) (L : Fin 1000000 → EReal)

/-- The responsibilities: point `i`, cluster `k`. -/
def gam (i : Fin 1000000) (k : Fin 16) : EReal := resp w C M (X i) (L i) k

/-- The column sums of the responsibilities. -/
def colSum (k : Fin 16) : EReal := ∑ i : Fin 1000000, gam w C M X L i k

/-- The new weights. -/
def newWeight (k : Fin 16) : EReal := Ideal.div (colSum w C M X L k) cN

/-- The responsibility-weighted sums of the points' coordinates. -/
def weightedSum (k p : Fin 16) : EReal := ∑ i : Fin 1000000, gam w C M X L i k * X i p

/-- The new centres. -/
def newCentre (k p : Fin 16) : EReal := Ideal.div (weightedSum w C M X L k p) (colSum w C M X L k)

/-- The responsibility-weighted sums of eˡ + ‖x − new centre‖². -/
def spread (k : Fin 16) : EReal :=
  ∑ i : Fin 1000000, gam w C M X L i k * (Ideal.exp (L i) + sqDist (newCentre w C M X L) (X i) k)

/-- The new log-variances. -/
def newLogVar (k : Fin 16) : EReal := Ideal.log (Ideal.div (spread w C M X L k) (c16 * colSum w C M X L k))

end Step

end Cert.MixtureStep

end
-- ==== Proof.BlockPieces.lean ====
/-
  One block of 5000 points of the mixture step, read entry by entry: the operations that are not entrywise.

  A block of the step is a 5000 × 16 array (a row per point, a column per coordinate or per cluster). Its row
  statistics — the sum and the largest entry of a row — are kept as a column and spread back over the row; its column
  sums are kept as a row; the squared norms of the sixteen centres are a row; and the two matrix products are the inner
  products of the block's rows with the centres, and the sums over the rows of the products of two columns. Each is
  read here at an index given by its coordinates. On top of them, three compound blocks are read at an entry in terms
  of one row of their operands: the softmax of a block of logits along its rows (each row shifted by its largest entry,
  plus the constant), the logits assembled from their pieces, and the expanded squared distances
  ‖x‖² − 2⟨x, M k⟩ + ‖M k‖².
-/
import proofs.«144664_j31903017074980_2_alg».proof.Proof.Gen.KernelIdeal.Skeleton
import proofs.«144664_j31903017074980_2_alg».proof.Proof.LibColumn
import proofs.«144664_j31903017074980_2_alg».proof.Proof.LibMatmulBlock
import proofs.«144664_j31903017074980_2_alg».proof.Proof.MixtureStep
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockValues

open Idealize.ShloMosaic Idealize.ShloMosaic.ValueIdx Idealize.ShloMosaic.ColumnLayout Cert.KernelIdeal Cert.KernelIdeal.Gen
open Cert.MixtureStep (c2 c16 cHalf cDet cLow sqDist logit rowMax resp)

/-! ## Pointwise operations the library has no name for -/

/-- An exponential at an index is the exponential of the element. -/
theorem exp_apply {s : Shape} {φ : FTy} (a : FVec Ideal s φ) (i : s.Idx) : exp a i = Ideal.exp (a i) := rfl
/-- A logarithm at an index is the logarithm of the element. -/
theorem log_apply {s : Shape} {φ : FTy} (a : FVec Ideal s φ) (i : s.Idx) : log a i = Ideal.log (a i) := rfl

/-! ## The source indices of the three sums -/

/-- Summing a 5000 × 16 block along its second axis: over row `r`, the source index with column `c` inserted is `(r, c)`. -/
theorem lift_row (r : Fin 5000) (c : Fin 16) : reduces_S5000x16_S5000.lift (ix1 r) c = ix2 r c := by
  funext a; apply Fin.ext
  match a with
  | ⟨0, _⟩ => rfl
  | ⟨1, _⟩ => rfl

/-- The same for a 16 × 16 array. -/
theorem lift_row16 (k c : Fin 16) : reduces_S16x16_S16.lift (ix1 k) c = ix2 k c := by
  funext a; apply Fin.ext
  match a with
  | ⟨0, _⟩ => rfl
  | ⟨1, _⟩ => rfl

/-- Summing a 5000 × 16 block along its first axis: over column `k`, the source index with row `r` inserted is `(r, k)`. -/
theorem lift_col (k : Fin 16) (r : Fin 5000) : reduces_S5000x16_S16.lift (ix1 k) r = ix2 r k := by
  funext a; apply Fin.ext
  match a with
  | ⟨0, _⟩ => rfl
  | ⟨1, _⟩ => rfl

/-! ## A row statistic of a block, spread back over the row -/

/-- The sum of each row of a block, kept as a column. -/
def rowSumCol (z : FVec Ideal S5000x16 .f32) : FVec Ideal S5000x1 .f32 :=
  shapeCast S5000x1 (multiReduction .add [1] S5000 z 0x00000000#32 reduces_S5000x16_S5000 (.inl rfl) rfl) shapeCasts_S5000_S5000x1

/-- The row sums read at a row: the sum over the sixteen columns. -/
theorem rowSumCol_apply (z : FVec Ideal S5000x16 .f32) (r : Fin 5000) (u : Fin 1) :
    rowSumCol z (ix2 r u) = ∑ c : Fin 16, z (ix2 r c) := by
  refine (shapeCast_a_a1_apply _ shapeCasts_S5000_S5000x1 r u).trans ?_
  refine (Ideal.multiReduction_add_single z 0x00000000#32 reduces_S5000x16_S5000 (.inl rfl) rfl (ix1 r)).trans ?_
  exact Finset.sum_congr rfl fun c _ => congrArg z (lift_row r c)

/-- The largest entry of each row of a block, kept as a column. -/
def rowMaxCol (z : FVec Ideal S5000x16 .f32) : FVec Ideal S5000x1 .f32 :=
  shapeCast S5000x1 (multiReduction .maximumf [1] S5000 z 0xFF800000#32 reduces_S5000x16_S5000 (.inl rfl) rfl) shapeCasts_S5000_S5000x1

/-- The row maxima read at a row: the fold of `max` over the sixteen columns. -/
theorem rowMaxCol_apply (z : FVec Ideal S5000x16 .f32) (r : Fin 5000) (u : Fin 1) :
    rowMaxCol z (ix2 r u) = rowMax (fun c => z (ix2 r c)) := by
  refine (shapeCast_a_a1_apply _ shapeCasts_S5000_S5000x1 r u).trans ?_
  refine (Ideal.multiReduction_maximumf_single z 0xFF800000#32 reduces_S5000x16_S5000 (.inl rfl) rfl (ix1 r)).trans ?_
  show Finset.fold max cLow (fun c : Fin 16 => z (reduces_S5000x16_S5000.lift (ix1 r) c)) Finset.univ = _
  exact congrArg (fun f : Fin 16 → EReal => Finset.fold max cLow f Finset.univ) (funext fun c => congrArg z (lift_row r c))

/-- A column spread over the sixteen columns of a block reads, at `(r, k)`, the column's entry of row `r`. -/
theorem spreadCol_apply (v : FVec Ideal S5000x1 .f32) (r : Fin 5000) (k : Fin 16) :
    broadcastTo S5000x16 v broadcasts_S5000x1_S5000x16 (ix2 r k) = v (ix2 r (0 : Fin 1)) :=
  broadcastTo_a1_ab_apply v broadcasts_S5000x1_S5000x16 r k

/-- A row spread over the 5000 rows of a block reads, at `(r, k)`, the row's entry of column `k`. -/
theorem spreadRow_apply (v : FVec Ideal S1x16 .f32) (r : Fin 5000) (k : Fin 16) :
    broadcastTo S5000x16 v broadcasts_S1x16_S5000x16 (ix2 r k) = v (ix2 (0 : Fin 1) k) :=
  broadcastTo_1b_ab_apply v broadcasts_S1x16_S5000x16 r k

/-! ## The column sums of a block, as a row -/

/-- The sum of each column of a block, kept as a row. -/
def colSumRow (g : FVec Ideal S5000x16 .f32) : FVec Ideal S1x16 .f32 :=
  shapeCast S1x16 (multiReduction .add [0] S16 g 0x00000000#32 reduces_S5000x16_S16 (.inl rfl) rfl) shapeCasts_S16_S1x16

/-- The column sums read at a column: the sum over the 5000 rows. -/
theorem colSumRow_apply (g : FVec Ideal S5000x16 .f32) (u : Fin 1) (k : Fin 16) :
    colSumRow g (ix2 u k) = ∑ r : Fin 5000, g (ix2 r k) := by
  refine (shapeCast_a_1a_apply _ shapeCasts_S16_S1x16 u k).trans ?_
  refine (Ideal.multiReduction_add_single g 0x00000000#32 reduces_S5000x16_S16 (.inl rfl) rfl (ix1 k)).trans ?_
  exact Finset.sum_congr rfl fun r _ => congrArg g (lift_col k r)

/-! ## The squared norms of the sixteen centres, as a row -/

/-- The squared norm of each row of a 16 × 16 array, as a row. -/
def normRow (M : FVec Ideal S16x16 .f32) : FVec Ideal S1x16 .f32 :=
  transpose S1x16 [1, 0]
    (shapeCast S16x1 (multiReduction .add [1] S16 (mulf M M) 0x00000000#32 reduces_S16x16_S16 (.inl rfl) rfl) shapeCasts_S16_S16x1)
    transposes_S16x1_p1_0_S1x16

/-- The squared norms read at a centre. -/
theorem normRow_apply (M : FVec Ideal S16x16 .f32) (u : Fin 1) (k : Fin 16) :
    normRow M (ix2 u k) = ∑ c : Fin 16, M (ix2 k c) * M (ix2 k c) := by
  refine (transpose_ix2_apply _ transposes_S16x1_p1_0_S1x16 u k).trans ?_
  refine (shapeCast_a_a1_apply _ shapeCasts_S16_S16x1 k u).trans ?_
  refine (Ideal.multiReduction_add_single (mulf M M) 0x00000000#32 reduces_S16x16_S16 (.inl rfl) rfl (ix1 k)).trans ?_
  exact Finset.sum_congr rfl fun c _ => congrArg (mulf M M) (lift_row16 k c)

/-- A column of sixteen entries laid out as a row. -/
theorem colAsRow_apply (v : FVec Ideal S16x1 .f32) (u : Fin 1) (k : Fin 16) :
    transpose S1x16 [1, 0] v transposes_S16x1_p1_0_S1x16 (ix2 u k) = v (ix2 k u) :=
  transpose_ix2_apply v transposes_S16x1_p1_0_S1x16 u k

/-! ## The two matrix products -/

/-- The inner products of the rows of a block with the rows of a 16 × 16 array. -/
def crossBlock (x : FVec Ideal S5000x16 .f32) (M : FVec Ideal S16x16 .f32) : FVec Ideal S5000x16 .f32 :=
  matmul dot_S5000x16_S16x16_S5000x16_1_0_0_1_n_n none x (transpose S16x16 [1, 0] M transposes_S16x16_p1_0_S16x16)
    (constant S5000x16 .f32 0x00000000#32)

/-- Entry `(r, k)`: the inner product of row `r` of the block with row `k` of the array. -/
theorem crossBlock_apply (x : FVec Ideal S5000x16 .f32) (M : FVec Ideal S16x16 .f32) (r : Fin 5000) (k : Fin 16) :
    crossBlock x M (ix2 r k) = ∑ c : Fin 16, x (ix2 r c) * M (ix2 k c) := by
  refine (Cert.LibMatmulBlock.matmul_zero_apply _ none x _ r k).trans ?_
  exact Finset.sum_congr rfl fun c _ =>
    congrArg (x (ix2 r c) * ·) (transpose_ix2_apply M transposes_S16x16_p1_0_S16x16 c k)

/-- The product of a block, transposed, with a second block: the sums over the rows of the products of two columns. -/
def weightedBlock (g x : FVec Ideal S5000x16 .f32) : FVec Ideal S16x16 .f32 :=
  matmul dot_S16x5000_S5000x16_S16x16_1_0_0_1_n_n none (transpose S16x5000 [1, 0] g transposes_S5000x16_p1_0_S16x5000) x
    (constant S16x16 .f32 0x00000000#32)

/-- Entry `(k, p)`: the sum over the rows of column `k` of the first block times column `p` of the second. -/
theorem weightedBlock_apply (g x : FVec Ideal S5000x16 .f32) (k p : Fin 16) :
    weightedBlock g x (ix2 k p) = ∑ r : Fin 5000, g (ix2 r k) * x (ix2 r p) := by
  refine (Cert.LibMatmulBlock.matmul_zero_apply _ none _ x k p).trans ?_
  exact Finset.sum_congr rfl fun r _ =>
    congrArg (· * x (ix2 r p)) (transpose_ix2_apply g transposes_S5000x16_p1_0_S16x5000 k r)

/-! ## The softmax of a block of logits -/

/-- The softmax of each row of a block of logits, the row shifted by its largest entry before it is exponentiated,
    plus the constant. -/
def softmaxBlock (z : FVec Ideal S5000x16 .f32) : FVec Ideal S5000x16 .f32 :=
  addf
    (divf (exp (subf z (broadcastTo S5000x16 (rowMaxCol z) broadcasts_S5000x1_S5000x16)))
      (broadcastTo S5000x16 (rowSumCol (exp (subf z (broadcastTo S5000x16 (rowMaxCol z) broadcasts_S5000x1_S5000x16))))
        broadcasts_S5000x1_S5000x16))
    (broadcast S5000x16 (Scalar.ofBits .f32 0x24E69595#32))

/-- The shifted logit at `(r, k)`. -/
theorem shifted_apply (z : FVec Ideal S5000x16 .f32) (r : Fin 5000) (k : Fin 16) :
    exp (subf z (broadcastTo S5000x16 (rowMaxCol z) broadcasts_S5000x1_S5000x16)) (ix2 r k)
      = Ideal.exp (z (ix2 r k) - rowMax (fun c => z (ix2 r c))) := by
  show Ideal.exp (z (ix2 r k) - broadcastTo S5000x16 (rowMaxCol z) broadcasts_S5000x1_S5000x16 (ix2 r k)) = _
  rw [spreadCol_apply, rowMaxCol_apply]

/-- The softmax block at `(r, k)`, in terms of row `r` of the logits alone. -/
theorem softmaxBlock_apply (z : FVec Ideal S5000x16 .f32) (r : Fin 5000) (k : Fin 16) :
    softmaxBlock z (ix2 r k)
      = Ideal.div (Ideal.exp (z (ix2 r k) - rowMax (fun c => z (ix2 r c))))
          (∑ k' : Fin 16, Ideal.exp (z (ix2 r k') - rowMax (fun c => z (ix2 r c))))
        + cDet := by
  show Ideal.div (exp (subf z (broadcastTo S5000x16 (rowMaxCol z) broadcasts_S5000x1_S5000x16)) (ix2 r k))
        (broadcastTo S5000x16 (rowSumCol (exp (subf z (broadcastTo S5000x16 (rowMaxCol z) broadcasts_S5000x1_S5000x16))))
          broadcasts_S5000x1_S5000x16 (ix2 r k))
      + cDet = _
  rw [spreadCol_apply, rowSumCol_apply, shifted_apply]
  exact congrArg (fun s => Ideal.div _ s + cDet) (Finset.sum_congr rfl fun k' _ => shifted_apply z r k')

/-! ## The logits of a block -/

/-- The logits of a block from their pieces: the weights as a row `w`, the squared distances `d`, the row `e` of
    e^(−C k), and the two blocks `a` = 16 (C k − l) − 16 and `b` = eˡ e^(−C k). -/
def logitsBlock (w : FVec Ideal S1x16 .f32) (d : FVec Ideal S5000x16 .f32) (e : FVec Ideal S1x16 .f32)
    (a b : FVec Ideal S5000x16 .f32) : FVec Ideal S5000x16 .f32 :=
  subf (broadcastTo S5000x16 (log w) broadcasts_S1x16_S5000x16)
    (mulf (broadcast S5000x16 (Scalar.ofBits .f32 0x3F000000#32))
      (addf (addf a b) (mulf d (broadcastTo S5000x16 e broadcasts_S1x16_S5000x16))))

/-- The logits block at `(r, k)`. -/
theorem logitsBlock_apply (w : FVec Ideal S1x16 .f32) (d : FVec Ideal S5000x16 .f32) (e : FVec Ideal S1x16 .f32)
    (a b : FVec Ideal S5000x16 .f32) (r : Fin 5000) (k : Fin 16) :
    logitsBlock w d e a b (ix2 r k)
      = Ideal.log (w (ix2 (0 : Fin 1) k))
        - cHalf * (a (ix2 r k) + b (ix2 r k) + d (ix2 r k) * e (ix2 (0 : Fin 1) k)) := by
  show broadcastTo S5000x16 (log w) broadcasts_S1x16_S5000x16 (ix2 r k)
      - cHalf * (a (ix2 r k) + b (ix2 r k) + d (ix2 r k) * broadcastTo S5000x16 e broadcasts_S1x16_S5000x16 (ix2 r k)) = _
  rw [spreadRow_apply, spreadRow_apply]
  rfl

/-! ## The squared distances of a block's rows to sixteen centres -/

/-- The squared distances ‖x‖² − 2⟨x, M k⟩ + ‖M k‖², the squared norms of the block's rows given as a column `n`. -/
def sqDistBlock (n : FVec Ideal S5000x1 .f32) (x : FVec Ideal S5000x16 .f32) (M : FVec Ideal S16x16 .f32) :
    FVec Ideal S5000x16 .f32 :=
  addf
    (subf (broadcastTo S5000x16 n broadcasts_S5000x1_S5000x16)
      (mulf (broadcast S5000x16 (Scalar.ofBits .f32 0x40000000#32)) (crossBlock x M)))
    (broadcastTo S5000x16 (normRow M) broadcasts_S1x16_S5000x16)

/-- The squared-distance block at `(r, k)`. -/
theorem sqDistBlock_apply (n : FVec Ideal S5000x1 .f32) (x : FVec Ideal S5000x16 .f32) (M : FVec Ideal S16x16 .f32)
    (r : Fin 5000) (k : Fin 16) :
    sqDistBlock n x M (ix2 r k)
      = n (ix2 r (0 : Fin 1)) - c2 * (∑ c : Fin 16, x (ix2 r c) * M (ix2 k c)) + ∑ c : Fin 16, M (ix2 k c) * M (ix2 k c) := by
  show broadcastTo S5000x16 n broadcasts_S5000x1_S5000x16 (ix2 r k) - c2 * crossBlock x M (ix2 r k)
      + broadcastTo S5000x16 (normRow M) broadcasts_S1x16_S5000x16 (ix2 r k) = _
  rw [spreadCol_apply, crossBlock_apply, spreadRow_apply, normRow_apply]

/-- With the squared norms of the block's own rows: the specification's squared distance. -/
theorem sqDistBlock_rowSum_apply (x : FVec Ideal S5000x16 .f32) (M : FVec Ideal S16x16 .f32) (r : Fin 5000) (k : Fin 16) :
    sqDistBlock (rowSumCol (mulf x x)) x M (ix2 r k) = sqDist (fun k c => M (ix2 k c)) (fun c => x (ix2 r c)) k := by
  rw [sqDistBlock_apply, rowSumCol_apply]
  rfl

end Cert.KernelIdeal.BlockValues

end
-- ==== Proof.BlockGamma.lean ====
/-
  The responsibilities block of the first kernel, entry by entry.

  The first kernel assembles, for its block of 5000 points, the row of weights, the squared distances of the points
  to the sixteen centres, the row of e^(−C k), and the blocks 16 (C k − l) − 16 and eˡ · e^(−C k); the logits are
  log w k − ½ · (their sum, the squared distance weighted by e^(−C k)), and the responsibilities the softmax of the
  logits along each row plus the constant. Read at row r and column k this is the specification's responsibility of
  cluster k for the point in row r.
-/
import proofs.«144664_j31903017074980_2_alg».proof.Proof.BlockPieces

noncomputable section

open scoped BigOperators

namespace Cert.KernelIdeal.BlockValues

open Idealize.ShloMosaic Idealize.ShloMosaic.ValueIdx Idealize.ShloMosaic.ColumnLayout Cert.KernelIdeal Cert.KernelIdeal.Gen
open Cert.MixtureStep (c2 c16 cHalf cDet cLow sqDist logit rowMax resp)

/-! ## The first kernel's pieces -/

/-- The log-variances of the sixteen clusters laid out as a row. -/
theorem k0_pay6_apply (x4 : Vec Ideal S16x1 .f32) (u : Fin 1) (k : Fin 16) : k0_pay6 (F := Ideal) x4 (ix2 u k) = x4 (ix2 k u) :=
  colAsRow_apply x4 u k

/-- The weights row is the loaded row. -/
theorem k0_pay7_eq (x2 : Vec Ideal S1x16 .f32) : k0_pay7 (F := Ideal) x2 = x2 := shapeCast_self x2 shapeCasts_S1x16_S1x16

/-- The squared distances block is the one of the block's rows to the sixteen centres. -/
theorem k0_pay8_eq (x0 : Vec Ideal S5000x16 .f32) (x3 : Vec Ideal S16x16 .f32) :
    k0_pay8 (F := Ideal) x0 x3 = sqDistBlock (rowSumCol (mulf x0 x0)) x0 x3 := rfl

/-- The row of e^(−C k). -/
theorem k0_pay9_apply (x4 : Vec Ideal S16x1 .f32) (u : Fin 1) (k : Fin 16) :
    k0_pay9 (F := Ideal) x4 (ix2 u k) = Ideal.exp (-(x4 (ix2 k u))) := by
  show Ideal.exp (Ideal.ofBits .f32 0x00000000#32 - k0_pay6 (F := Ideal) x4 (ix2 u k)) = _
  rw [Cert.MixtureStep.zero_sub_eq_neg, k0_pay6_apply]

/-- The block 16 (C k − l) − 16. -/
theorem k0_pay10_apply (x1 : Vec Ideal S5000x1 .f32) (x4 : Vec Ideal S16x1 .f32) (r : Fin 5000) (k : Fin 16) :
    k0_pay10 (F := Ideal) x1 x4 (ix2 r k) = c16 * (x4 (ix2 k (0 : Fin 1)) - x1 (ix2 r (0 : Fin 1))) - c16 := by
  show c16 * (broadcastTo S5000x16 (k0_pay6 (F := Ideal) x4) broadcasts_S1x16_S5000x16 (ix2 r k)
        - broadcastTo S5000x16 x1 broadcasts_S5000x1_S5000x16 (ix2 r k)) - c16 = _
  rw [spreadRow_apply, spreadCol_apply, k0_pay6_apply]

/-- The block eˡ · e^(−C k). -/
theorem k0_pay11_apply (x1 : Vec Ideal S5000x1 .f32) (x4 : Vec Ideal S16x1 .f32) (r : Fin 5000) (k : Fin 16) :
    k0_pay11 (F := Ideal) x1 x4 (ix2 r k) = Ideal.exp (x1 (ix2 r (0 : Fin 1))) * Ideal.exp (-(x4 (ix2 k (0 : Fin 1)))) := by
  show broadcastTo S5000x16 (exp x1) broadcasts_S5000x1_S5000x16 (ix2 r k)
      * broadcastTo S5000x16 (k0_pay9 (F := Ideal) x4) broadcasts_S1x16_S5000x16 (ix2 r k) = _
  rw [spreadCol_apply, spreadRow_apply, k0_pay9_apply]
  rfl

/-- The responsibilities block is the softmax of the logits block. -/
theorem k0_pay1_eq (v9 : FVec Ideal S1x16 .f32) (v24 : FVec Ideal S5000x16 .f32) (v27 : FVec Ideal S1x16 .f32)
    (v34 v38 : FVec Ideal S5000x16 .f32) :
    k0_pay1 (F := Ideal) v9 v24 v27 v34 v38 = softmaxBlock (logitsBlock v9 v24 v27 v34 v38) := rfl

/-- The logits of row `r` of a block, from the loaded blocks: the specification's logit. -/
theorem logits_apply (x0 : Vec Ideal S5000x16 .f32) (x1 : Vec Ideal S5000x1 .f32) (x2 : Vec Ideal S1x16 .f32)
    (x3 : Vec Ideal S16x16 .f32) (x4 : Vec Ideal S16x1 .f32) (r : Fin 5000) (k : Fin 16) :
    logitsBlock (k0_pay7 (F := Ideal) x2) (k0_pay8 x0 x3) (k0_pay9 x4) (k0_pay10 x1 x4) (k0_pay11 x1 x4) (ix2 r k)
      = logit (fun k => x2 (ix2 (0 : Fin 1) k)) (fun k => x4 (ix2 k (0 : Fin 1))) (fun k c => x3 (ix2 k c))
          (fun c => x0 (ix2 r c)) (x1 (ix2 r (0 : Fin 1))) k := by
  rw [logitsBlock_apply, k0_pay7_eq, k0_pay8_eq, sqDistBlock_rowSum_apply, k0_pay9_apply, k0_pay10_apply, k0_pay11_apply]
  rfl

/-- The softmax of those logits at `(r, k)`: the specification's responsibility. -/
theorem softmax_logits_apply (x0 : Vec Ideal S5000x16 .f32) (x1 : Vec Ideal S5000x1 .f32) (x2 : Vec Ideal S1x16 .f32)
    (x3 : Vec Ideal S16x16 .f32) (x4 : Vec Ideal S16x1 .f32) (r : Fin 5000) (k : Fin 16) :
    softmaxBlock (logitsBlock (k0_pay7 (F := Ideal) x2) (k0_pay8 x0 x3) (k0_pay9 x4) (k0_pay10 x1 x4) (k0_pay11 x1 x4)) (ix2 r k)
      = resp (fun k => x2 (ix2 (0 : Fin 1) k)) (fun k => x4 (ix2 k (0 : Fin 1))) (fun k c => x3 (ix2 k c))
          (fun c => x0 (ix2 r c)) (x1 (ix2 r (0 : Fin 1))) k := by
  rw [softmaxBlock_apply]
  have hrow : (fun c => logitsBlock (k0_pay7 (F := Ideal) x2) (k0_pay8 x0 x3) (k0_pay9 x4) (k0_pay10 x1 x4) (k0_pay11 x1 x4) (ix2 r c))
      = logit (fun k => x2 (ix2 (0 : Fin 1) k)) (fun k => x4 (ix2 k (0 : Fin 1))) (fun k c => x3 (ix2 k c))
          (fun c => x0 (ix2 r c)) (x1 (ix2 r (0 : Fin 1))) := funext fun c => logits_apply x0 x1 x2 x3 x4 r c
  rw [hrow, logits_apply]
  unfold resp
  exact congrArg (fun s => Ideal.div _ s + cDet) (Finset.sum_congr rfl fun k' _ => by rw [logits_apply])

/-- THE RESPONSIBILITIES BLOCK at `(r, k)` is the responsibility of cluster `k` for the block's point `r`. -/
theorem block_gam (x0 : Vec Ideal S5000x16 .f32) (x1 : Vec Ideal S5000x1 .f32) (x2 : Vec Ideal S1x16 .f32)
    (x3 : Vec Ideal S16x16 .f32) (x4 : Vec Ideal S16x1 .f32) (r : Fin 5000) (k : Fin 16) :
    k0_pay1 (F := Ideal) (k0_pay7 x2) (k0_pay8 x0 x3) (k0_pay9 x4) (k0_pay10 x1 x4) (k0_pay11 x1 x4) (ix2 r k)
      = resp (fun k => x2 (ix2 (0 : Fin 1) k)) (fun k => x4 (ix2 k (0 : Fin 1))) (fun k c => x3 (ix2 k c))
          (fun c => x0 (ix2 r c)) (x1 (ix2 r (0 : Fin 1))) k := by
  rw [k0_pay1_eq]
  exact softmax_logits_apply x0 x1 x2 x3 x4 r k

end Cert.KernelIdeal.BlockValues

end
-- ==== Proof.BlockSums.lean ====
/-
  The accumulators of the two kernels at one block, entry by entry.

  At each block the first kernel adds to a row the column sums of the block's responsibilities and to a 16 × 16 array
  the sums over the block's points of responsibility times coordinate; both start from zero. The second kernel
  recomputes the responsibilities and adds to a row the sums over the block's points of responsibility times
  (eˡ + the squared distance to the new centre); it too starts from zero.
-/
import proofs.«144664_j31903017074980_2_alg».proof.Proof.BlockGamma

noncomputable section

open scoped BigOperators

namespace Cert.KernelIdeal.BlockValues

open Idealize.ShloMosaic Idealize.ShloMosaic.ValueIdx Idealize.ShloMosaic.ColumnLayout Cert.KernelIdeal Cert.KernelIdeal.Gen
open Cert.MixtureStep (c2 c16 cHalf cDet cLow sqDist logit rowMax resp)

/-! ## The first kernel's accumulators -/

/-- THE COLUMN-SUM ROW: the previous row plus this block's column sums of the responsibilities. -/
theorem block_colSum (v9 : FVec Ideal S1x16 .f32) (v24 : FVec Ideal S5000x16 .f32) (v27 : FVec Ideal S1x16 .f32)
    (v34 v38 : FVec Ideal S5000x16 .f32) (v60 : Vec Ideal S1x16 .f32) (k : Fin 16) :
    k0_pay2 (F := Ideal) v9 v24 v27 v34 v38 v60 (ix2 (0 : Fin 1) k)
      = v60 (ix2 (0 : Fin 1) k) + ∑ r : Fin 5000, k0_pay1 (F := Ideal) v9 v24 v27 v34 v38 (ix2 r k) := by
  show shapeCast S1x16 v60 shapeCasts_S1x16_S1x16 (ix2 (0 : Fin 1) k)
      + colSumRow (k0_pay1 (F := Ideal) v9 v24 v27 v34 v38) (ix2 (0 : Fin 1) k) = _
  rw [shapeCast_self, colSumRow_apply]

/-- THE WEIGHTED-SUM ACCUMULATOR: the previous array plus this block's sums of responsibility times coordinate. -/
theorem block_weighted (v3 : Vec Ideal S5000x16 .f32) (v9 : FVec Ideal S1x16 .f32) (v24 : FVec Ideal S5000x16 .f32)
    (v27 : FVec Ideal S1x16 .f32) (v34 v38 : FVec Ideal S5000x16 .f32) (v66 : Vec Ideal S16x16 .f32) (k p : Fin 16) :
    k0_pay3 (F := Ideal) v3 v9 v24 v27 v34 v38 v66 (ix2 k p)
      = v66 (ix2 k p) + ∑ r : Fin 5000, k0_pay1 (F := Ideal) v9 v24 v27 v34 v38 (ix2 r k) * v3 (ix2 r p) := by
  show shapeCast S16x16 v66 shapeCasts_S16x16_S16x16 (ix2 k p)
      + weightedBlock (k0_pay1 (F := Ideal) v9 v24 v27 v34 v38) v3 (ix2 k p) = _
  rw [shapeCast_self, weightedBlock_apply]

/-- The row the column sums start from is zero. -/
theorem zero_row (k : Fin 16) : k0_pay4 (F := Ideal) (ix2 (0 : Fin 1) k) = 0 := Ideal.ofBits_zero_f32

/-- The array the weighted sums start from is zero. -/
theorem zero_sq (k p : Fin 16) : k0_pay5 (F := Ideal) (ix2 k p) = 0 := Ideal.ofBits_zero_f32

/-! ## The second kernel -/

/-- The row the spreads start from is zero. -/
theorem zero_row1 (k : Fin 16) : k1_pay1 (F := Ideal) (ix2 (0 : Fin 1) k) = 0 := Ideal.ofBits_zero_f32

/-- The second kernel's pieces are the first kernel's. -/
theorem k1_pay3_eq (x2 : Vec Ideal S1x16 .f32) : k1_pay3 (F := Ideal) x2 = k0_pay7 x2 := rfl
theorem k1_pay4_eq (x5 : Vec Ideal S16x16 .f32) : k1_pay4 (F := Ideal) x5 = x5 := shapeCast_self x5 shapeCasts_S16x16_S16x16
theorem k1_pay5_eq (x0 : Vec Ideal S5000x16 .f32) : k1_pay5 (F := Ideal) x0 = rowSumCol (mulf x0 x0) := rfl
theorem k1_pay6_eq (x0 : Vec Ideal S5000x16 .f32) (x3 : Vec Ideal S16x16 .f32) : k1_pay6 (F := Ideal) x0 x3 = k0_pay8 x0 x3 := rfl
theorem k1_pay7_eq (x4 : Vec Ideal S16x1 .f32) : k1_pay7 (F := Ideal) x4 = k0_pay9 x4 := rfl
theorem k1_pay8_eq (x1 : Vec Ideal S5000x1 .f32) (x4 : Vec Ideal S16x1 .f32) : k1_pay8 (F := Ideal) x1 x4 = k0_pay10 x1 x4 := rfl

/-- The spread row: the previous row plus the column sums of the softmax block times eˡ plus the squared distances to
    the new centres. The block eˡ · e^(−C k) of the logits is the first kernel's when `v29` is its row of e^(−C k). -/
theorem k1_pay9_eq (v3 : Vec Ideal S5000x16 .f32) (v4 : Vec Ideal S5000x1 .f32) (v9 : FVec Ideal S1x16 .f32)
    (v11 : FVec Ideal S16x16 .f32) (v14 : FVec Ideal S5000x1 .f32) (v26 : FVec Ideal S5000x16 .f32) (v29 : FVec Ideal S1x16 .f32)
    (v36 : FVec Ideal S5000x16 .f32) (v77 : Vec Ideal S1x16 .f32) :
    k1_pay9 (F := Ideal) v3 v4 v9 v11 v14 v26 v29 v36 v77
      = addf (shapeCast S1x16 v77 shapeCasts_S1x16_S1x16)
          (colSumRow (mulf
            (softmaxBlock (logitsBlock v9 v26 v29 v36
              (mulf (broadcastTo S5000x16 (exp v4) broadcasts_S5000x1_S5000x16) (broadcastTo S5000x16 v29 broadcasts_S1x16_S5000x16))))
            (addf (broadcastTo S5000x16 (exp v4) broadcasts_S5000x1_S5000x16) (sqDistBlock v14 v3 v11)))) := rfl

/-- The first kernel's block eˡ · e^(−C k), spelt out. -/
theorem k0_pay11_eq (x1 : Vec Ideal S5000x1 .f32) (x4 : Vec Ideal S16x1 .f32) :
    mulf (broadcastTo S5000x16 (exp x1) broadcasts_S5000x1_S5000x16) (broadcastTo S5000x16 (k0_pay9 (F := Ideal) x4) broadcasts_S1x16_S5000x16)
      = k0_pay11 (F := Ideal) x1 x4 := rfl

/-- THE SPREAD ROW: the previous row plus this block's sums of responsibility times (eˡ + squared distance to the new
    centre). -/
theorem block_spread (x0 : Vec Ideal S5000x16 .f32) (x1 : Vec Ideal S5000x1 .f32) (x2 : Vec Ideal S1x16 .f32)
    (x3 : Vec Ideal S16x16 .f32) (x4 : Vec Ideal S16x1 .f32) (x5 : Vec Ideal S16x16 .f32) (v77 : Vec Ideal S1x16 .f32) (k : Fin 16) :
    k1_pay9 (F := Ideal) x0 x1 (k1_pay3 x2) (k1_pay4 x5) (k1_pay5 x0) (k1_pay6 x0 x3) (k1_pay7 x4) (k1_pay8 x1 x4) v77 (ix2 (0 : Fin 1) k)
      = v77 (ix2 (0 : Fin 1) k)
        + ∑ r : Fin 5000, resp (fun k => x2 (ix2 (0 : Fin 1) k)) (fun k => x4 (ix2 k (0 : Fin 1))) (fun k c => x3 (ix2 k c))
              (fun c => x0 (ix2 r c)) (x1 (ix2 r (0 : Fin 1))) k
            * (Ideal.exp (x1 (ix2 r (0 : Fin 1))) + sqDist (fun k c => x5 (ix2 k c)) (fun c => x0 (ix2 r c)) k) := by
  rw [k1_pay9_eq, k1_pay3_eq, k1_pay4_eq, k1_pay5_eq, k1_pay6_eq, k1_pay7_eq, k1_pay8_eq, k0_pay11_eq]
  show shapeCast S1x16 v77 shapeCasts_S1x16_S1x16 (ix2 (0 : Fin 1) k) + colSumRow _ (ix2 (0 : Fin 1) k) = _
  rw [shapeCast_self, colSumRow_apply]
  refine congrArg (v77 (ix2 (0 : Fin 1) k) + ·) (Finset.sum_congr rfl fun r _ => ?_)
  show softmaxBlock (logitsBlock (k0_pay7 (F := Ideal) x2) (k0_pay8 x0 x3) (k0_pay9 x4) (k0_pay10 x1 x4) (k0_pay11 x1 x4)) (ix2 r k)
      * (broadcastTo S5000x16 (exp x1) broadcasts_S5000x1_S5000x16 (ix2 r k) + sqDistBlock (rowSumCol (mulf x0 x0)) x0 x5 (ix2 r k)) = _
  rw [softmax_logits_apply, spreadCol_apply, sqDistBlock_rowSum_apply]
  rfl

end Cert.KernelIdeal.BlockValues

end
-- ==== Proof.LibSumBlocks.lean ====
/-
  Regrouping a long sum into blocks, on any additive commutative monoid `M` (the extended reals are one).

  A sum over `Fin (a * b)` is the sum over the `a` blocks of the sums over each block's `b` entries, the
  entry `j` of block `t` at position `t * b + j`; a sum over `Fin (a * b * c)` is the triple sum with
  position `t * (b * c) + j * c + r`. Both are the re-indexing of the sum along
  `Fin a × Fin b ≃ Fin (a * b)` followed by the sum over a product as an iterated sum.

  A counted loop that starts from `init` and adds `g k` at trip `k` — the left fold of
  `fun acc k => acc + g k` over `List.finRange n`, which is how the value of an effect-free counted
  loop is expressed — ends at `init + ∑ k, g k`; with `g k` a block's sum and `init = 0` the loop
  computes the whole sum.
-/
import Mathlib.Algebra.BigOperators.Fin
import Mathlib.Algebra.BigOperators.Pi
import Mathlib.Logic.Equiv.Fin.Basic
import Mathlib.Data.Fintype.BigOperators
import Mathlib.Tactic.Ring

namespace Cert.Lib

open scoped BigOperators

variable {M : Type*} [AddCommMonoid M]

/-- Entry `j` of block `t`, among `a` blocks of `b` entries, sits below `a * b`:
    `t * b + j < t * b + b = (t + 1) * b ≤ a * b`. -/
theorem block₂_lt {a b : ℕ} (t : Fin a) (j : Fin b) : t.val * b + j.val < a * b :=
  calc t.val * b + j.val < t.val * b + b := Nat.add_lt_add_left j.isLt _
    _ = (t.val + 1) * b := (Nat.succ_mul _ _).symm
    _ ≤ a * b := Nat.mul_le_mul_right _ t.isLt

/-- Entry `r` of row `j` of block `t`, among `a` blocks of `b` rows of `c` entries, sits below
    `a * b * c`: the position is `(t * b + j) * c + r`, two uses of the two-level bound. -/
theorem block₃_lt {a b c : ℕ} (t : Fin a) (j : Fin b) (r : Fin c) :
    t.val * (b * c) + j.val * c + r.val < a * b * c := by
  have h : t.val * (b * c) + j.val * c + r.val = (t.val * b + j.val) * c + r.val := by ring
  rw [h]
  exact block₂_lt (⟨t.val * b + j.val, block₂_lt t j⟩ : Fin (a * b)) r

/-- A sum over `Fin (a * b)` regrouped into `a` blocks of `b`:
    `∑ i, f i = ∑ t, ∑ j, f (t * b + j)`. -/
theorem sum_blocks₂ (a b : ℕ) (f : Fin (a * b) → M) :
    ∑ i, f i = ∑ t : Fin a, ∑ j : Fin b, f ⟨t.val * b + j.val, block₂_lt t j⟩ := by
  rw [← Equiv.sum_comp (finProdFinEquiv (m := a) (n := b)) f, Fintype.sum_prod_type]
  refine Finset.sum_congr rfl fun t _ => Finset.sum_congr rfl fun j _ => congrArg f (Fin.ext ?_)
  show j.val + b * t.val = t.val * b + j.val
  ring

/-- A sum over `Fin (a * b * c)` regrouped into `a` blocks of `b` rows of `c`:
    `∑ i, f i = ∑ t, ∑ j, ∑ r, f (t * (b * c) + j * c + r)`. -/
theorem sum_blocks₃ (a b c : ℕ) (f : Fin (a * b * c) → M) :
    ∑ i, f i
      = ∑ t : Fin a, ∑ j : Fin b, ∑ r : Fin c, f ⟨t.val * (b * c) + j.val * c + r.val, block₃_lt t j r⟩ := by
  rw [sum_blocks₂ (a * b) c f, sum_blocks₂ a b]
  refine Finset.sum_congr rfl fun t _ => Finset.sum_congr rfl fun j _ => Finset.sum_congr rfl fun r _ =>
    congrArg f (Fin.ext ?_)
  show (t.val * b + j.val) * c + r.val = t.val * (b * c) + j.val * c + r.val
  ring

/-- The two-level regrouping for an index type `Fin n` with `n = a * b` known by an equation (a length
    written as a numeral). -/
theorem sum_blocks₂_of_eq {n : ℕ} (a b : ℕ) (h : n = a * b) (f : Fin n → M) :
    ∑ i, f i = ∑ t : Fin a, ∑ j : Fin b, f ⟨t.val * b + j.val, h ▸ block₂_lt t j⟩ := by
  subst h; exact sum_blocks₂ a b f

/-- The three-level regrouping for an index type `Fin n` with `n = a * b * c` known by an equation. -/
theorem sum_blocks₃_of_eq {n : ℕ} (a b c : ℕ) (h : n = a * b * c) (f : Fin n → M) :
    ∑ i, f i
      = ∑ t : Fin a, ∑ j : Fin b, ∑ r : Fin c,
          f ⟨t.val * (b * c) + j.val * c + r.val, h ▸ block₃_lt t j r⟩ := by
  subst h; exact sum_blocks₃ a b c f

/-- A left fold that adds `g k` to the carried value at each element `k` of a list ends at the initial
    value plus the sum of `g` over the list. -/
theorem foldl_add_eq_add_sum {α : Type*} (g : α → M) :
    ∀ (l : List α) (init : M), l.foldl (fun acc k => acc + g k) init = init + (l.map g).sum
  | [], init => by rw [List.foldl_nil, List.map_nil, List.sum_nil, add_zero]
  | k :: l, init => by
    rw [List.foldl_cons, foldl_add_eq_add_sum g l, List.map_cons, List.sum_cons, add_assoc]

/-- A counted loop of `n` trips that adds `g k` to its carried value at trip `k`, read as the left fold
    over the trips in order, ends at the initial value plus `∑ k, g k`. -/
theorem foldl_finRange_add (n : ℕ) (g : Fin n → M) (init : M) :
    (List.finRange n).foldl (fun acc k => acc + g k) init = init + ∑ k, g k := by
  rw [foldl_add_eq_add_sum, Fin.sum_univ_def]

/-- The same with the trip's term added on the left, `g k + acc`. -/
theorem foldl_finRange_add' (n : ℕ) (g : Fin n → M) (init : M) :
    (List.finRange n).foldl (fun acc k => g k + acc) init = init + ∑ k, g k := by
  have h : (fun (acc : M) (k : Fin n) => g k + acc) = fun acc k => acc + g k := by
    funext acc k; exact add_comm _ _
  rw [h, foldl_finRange_add]

/-- The same from zero: the loop computes the sum. -/
theorem foldl_finRange_add_zero (n : ℕ) (g : Fin n → M) :
    (List.finRange n).foldl (fun acc k => acc + g k) 0 = ∑ k, g k := by
  rw [foldl_finRange_add, zero_add]

/-- The same for a carried FAMILY of values (a vector), added entry by entry: at each entry `i` the
    loop ends at `init i + ∑ k, g k i`. -/
theorem foldl_finRange_add_pointwise {ι : Type*} (n : ℕ) (g : Fin n → ι → M) (init : ι → M) :
    (List.finRange n).foldl (fun acc k => fun i => acc i + g k i) init = fun i => init i + ∑ k, g k i := by
  have h := foldl_finRange_add n g init
  funext i
  have h' := congrFun h i
  rw [Pi.add_apply, Finset.sum_apply] at h'
  exact h'

/-- A carried value given by its recurrence — `acc 0 = 0` and `acc (k + 1) = acc k + g k` — is the sum
    of the first `n` terms after `n` trips. -/
theorem acc_eq_sum_range (acc : ℕ → M) (g : ℕ → M) (h0 : acc 0 = 0) (hs : ∀ k, acc (k + 1) = acc k + g k) :
    ∀ n, acc n = ∑ k ∈ Finset.range n, g k
  | 0 => by rw [h0, Finset.sum_range_zero]
  | n + 1 => by rw [hs, acc_eq_sum_range acc g h0 hs n, Finset.sum_range_succ]

/-- A counted loop over the `a` blocks that starts from zero and adds, at trip `t`, the sum of block
    `t`'s `b` entries, computes the whole sum over `Fin (a * b)`. -/
theorem foldl_blocks₂ (a b : ℕ) (f : Fin (a * b) → M) :
    (List.finRange a).foldl (fun acc t => acc + ∑ j : Fin b, f ⟨t.val * b + j.val, block₂_lt t j⟩) 0
      = ∑ i, f i := by
  rw [foldl_finRange_add_zero, sum_blocks₂]

/-- A counted loop over the `a` blocks that starts from zero and adds, at trip `t`, the sum of block
    `t`'s `b` rows of `c` entries, computes the whole sum over `Fin (a * b * c)`. -/
theorem foldl_blocks₃ (a b c : ℕ) (f : Fin (a * b * c) → M) :
    (List.finRange a).foldl
        (fun acc t => acc + ∑ j : Fin b, ∑ r : Fin c, f ⟨t.val * (b * c) + j.val * c + r.val, block₃_lt t j r⟩) 0
      = ∑ i, f i := by
  rw [foldl_finRange_add_zero, sum_blocks₃]

end Cert.Lib
-- ==== Proof.FirstRegion.lean ====
/-
  What the first launched region leaves in its three result arrays, at the ideal values.

  The region walks the million points in 200 blocks of 5000 rows. At each grid point its body computes the block of
  responsibilities of the rows it loaded and writes that block back; and it adds the block's column sums, and the
  block's responsibility-weighted sums of the points' coordinates, to two running buffers that are zeroed at the first
  point and written back once, after the last.
    * The responsibilities array is tiled by the 200 blocks, block `t` holding rows 5000·t … 5000·t + 4999, and each
      row's responsibilities depend on that row of the arguments only: so the array ends holding, at (i, k), the
      responsibility of cluster `k` for point `i`.
    * After point `n` each running buffer holds the sum of the terms of points 0 … n (induction on `n`: the first
      point adds its term to zero, every later one to what the point before left). After the last point that is the
      sum of the 200 block sums, which is the sum over all the million rows regrouped into blocks — a regrouping of a
      finite sum in an additive commutative monoid, so it holds on the extended reals whatever the summands are.
-/
import proofs.«144664_j31903017074980_2_alg».proof.Proof.Gen.KernelIdeal.Frame
import proofs.«144664_j31903017074980_2_alg».proof.Proof.Pieces
import proofs.«144664_j31903017074980_2_alg».proof.Proof.BlockReads
import proofs.«144664_j31903017074980_2_alg».proof.Proof.BlockSums
import proofs.«144664_j31903017074980_2_alg».proof.Proof.MixtureStep
import proofs.«144664_j31903017074980_2_alg».proof.Proof.LibSumBlocks
import Idealize.ShloMosaic.Lib.Pipeline.Value
import Idealize.ShloMosaic.Lib.ValueIdx

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.FirstRegion

open Cert.KernelIdeal Cert.KernelIdeal.Gen Idealize.ShloMosaic.ValueIdx Cert.KernelIdeal.BlockReads

variable (V : (c : Dev nD) → (b : Ref sig .tc) → Buf (Elt Ideal) ((c : Thread nD τ).loc b))

/-! ## The arrays the region finds, as plain families of extended reals -/

abbrev wAt (c : Dev nD) : Fin 16 → EReal := fun k => (V c main_v0 : Vec Ideal S1x16 .f32) (ix2 (0 : Fin 1) k)
abbrev cAt (c : Dev nD) : Fin 16 → EReal := fun k => (V c main_arg4 : Vec Ideal S16x1 .f32) (ix2 k (0 : Fin 1))
abbrev mAt (c : Dev nD) : Fin 16 → Fin 16 → EReal := fun k q => (V c main_arg3 : Vec Ideal S16x16 .f32) (ix2 k q)
abbrev xAt (c : Dev nD) : Fin 1000000 → Fin 16 → EReal := fun i q => (V c main_arg0 : Vec Ideal S1000000x16 .f32) (ix2 i q)
abbrev lAt (c : Dev nD) : Fin 1000000 → EReal := fun i => (V c main_arg1 : Vec Ideal S1000000x1 .f32) (ix2 i (0 : Fin 1))

/-- The responsibility of cluster `k` for point `i`, from the arrays the region finds. -/
abbrev gamAt (c : Dev nD) (i : Fin 1000000) (k : Fin 16) : EReal :=
  Cert.MixtureStep.gam (wAt V c) (cAt V c) (mAt V c) (xAt V c) (lAt V c) i k

/-! ## One grid point -/

/-- The block of responsibilities the body computes at point `t`. -/
def respBlk (c : Dev nD) (t : Fin cfg0.N) : FVec Ideal S5000x16 .f32 :=
  k0_pay1 (F := Ideal) (k0_pay7 (iblk0 V c 2 t)) (k0_pay8 (iblk0 V c 0 t) (iblk0 V c 3 t)) (k0_pay9 (iblk0 V c 4 t))
    (k0_pay10 (iblk0 V c 1 t) (iblk0 V c 4 t)) (k0_pay11 (iblk0 V c 1 t) (iblk0 V c 4 t))

/-- Its entry (r, k) is the responsibility of cluster `k` for point 5000·t + r. -/
theorem resp_entry (c : Dev nD) (t : Fin cfg0.N) (r : Fin 5000) (k : Fin 16) :
    respBlk V c t (ix2 r k) = gamAt V c ⟨t.val * 5000 + r.val, row_lt0 t r⟩ k := by
  unfold respBlk
  refine (BlockValues.block_gam (iblk0 V c 0 t) (iblk0 V c 1 t) (iblk0 V c 2 t) (iblk0 V c 3 t) (iblk0 V c 4 t) r k).trans ?_
  simp only [coords0 V c t, logvar0 V c t, weights0 V c t, centres0 V c t, clusterVar0 V c t]
  rfl

/-- The column sums of the block of point `s` (zero past the grid). -/
def colTerm (c : Dev nD) (s : ℕ) (k : Fin 16) : EReal :=
  if h : s < cfg0.N then ∑ r : Fin 5000, respBlk V c ⟨s, h⟩ (ix2 r k) else 0

/-- The responsibility-weighted coordinate sums of the block of point `s` (zero past the grid). -/
def weightedTerm (c : Dev nD) (s : ℕ) (k p : Fin 16) : EReal :=
  if h : s < cfg0.N then ∑ r : Fin 5000, respBlk V c ⟨s, h⟩ (ix2 r k) * (iblk0 V c 0 ⟨s, h⟩ : Vec Ideal S5000x16 .f32) (ix2 r p) else 0

/-! ## The running buffers after each point -/

/-- What the three staging buffers hold after the first point. -/
theorem first_point (c : Dev nD) (t : Fin cfg0.N) (h0 : t.val % 200 = 0) :
    (outsAt0 V c t.val t.isLt).1 = respBlk V c t
    ∧ (outsAt0 V c t.val t.isLt).2.1 = k0_pay2 (F := Ideal) (k0_pay7 (iblk0 V c 2 t)) (k0_pay8 (iblk0 V c 0 t) (iblk0 V c 3 t)) (k0_pay9 (iblk0 V c 4 t)) (k0_pay10 (iblk0 V c 1 t) (iblk0 V c 4 t)) (k0_pay11 (iblk0 V c 1 t) (iblk0 V c 4 t)) (k0_pay4 (F := Ideal))
    ∧ (outsAt0 V c t.val t.isLt).2.2 = k0_pay3 (F := Ideal) (iblk0 V c 0 t) (k0_pay7 (iblk0 V c 2 t)) (k0_pay8 (iblk0 V c 0 t) (iblk0 V c 3 t)) (k0_pay9 (iblk0 V c 4 t)) (k0_pay10 (iblk0 V c 1 t) (iblk0 V c 4 t)) (k0_pay11 (iblk0 V c 1 t) (iblk0 V c 4 t)) (k0_pay5 (F := Ideal)) := by
  have hA := outsAt0_A V c t h0
  refine ⟨?_, ?_, ?_⟩
  · rw [hA, Pieces.first_resp]
    (try rfl)
  · rw [hA, Pieces.first_colSum]
  · rw [hA, Pieces.first_weighted]

/-- What they hold after a later point, over what the point before left in the two running buffers. -/
theorem later_point (c : Dev nD) (t : Fin cfg0.N) (h0 : ¬t.val % 200 = 0) :
    (outsAt0 V c t.val t.isLt).1 = respBlk V c t
    ∧ (outsAt0 V c t.val t.isLt).2.1 = k0_pay2 (F := Ideal) (k0_pay7 (iblk0 V c 2 t)) (k0_pay8 (iblk0 V c 0 t) (iblk0 V c 3 t)) (k0_pay9 (iblk0 V c 4 t)) (k0_pay10 (iblk0 V c 1 t) (iblk0 V c 4 t)) (k0_pay11 (iblk0 V c 1 t) (iblk0 V c 4 t)) (outsAt0 V c (t.val - 1) (Nat.lt_of_le_of_lt (Nat.sub_le _ _) t.isLt)).2.1
    ∧ (outsAt0 V c t.val t.isLt).2.2 = k0_pay3 (F := Ideal) (iblk0 V c 0 t) (k0_pay7 (iblk0 V c 2 t)) (k0_pay8 (iblk0 V c 0 t) (iblk0 V c 3 t)) (k0_pay9 (iblk0 V c 4 t)) (k0_pay10 (iblk0 V c 1 t) (iblk0 V c 4 t)) (k0_pay11 (iblk0 V c 1 t) (iblk0 V c 4 t)) (outsAt0 V c (t.val - 1) (Nat.lt_of_le_of_lt (Nat.sub_le _ _) t.isLt)).2.2 := by
  have hB := outsAt0_B V c t h0
  refine ⟨?_, ?_, ?_⟩
  · rw [hB, Pieces.later_resp]
    (try rfl)
  · rw [hB, Pieces.later_colSum]
  · rw [hB, Pieces.later_weighted]

/-- After every point the first buffer holds that point's block of responsibilities. -/
theorem resp_at (c : Dev nD) (t : Fin cfg0.N) : (outsAt0 V c t.val t.isLt).1 = respBlk V c t := by
  by_cases h0 : t.val % 200 = 0
  · exact (first_point V c t h0).1
  · exact (later_point V c t h0).1

/-- After point `n` the second buffer holds the column sums of the blocks of points 0 … n. -/
theorem col_at (c : Dev nD) : ∀ (n : ℕ) (h : n < cfg0.N) (k : Fin 16),
    ((outsAt0 V c n h).2.1 : Vec Ideal S1x16 .f32) (ix2 (0 : Fin 1) k) = ∑ s ∈ Finset.range (n + 1), colTerm V c s k
  | 0, h, k => by
    have e := (first_point V c ⟨0, h⟩ rfl).2.1
    refine (congrFun e (ix2 (0 : Fin 1) k)).trans ?_
    refine (BlockValues.block_colSum (k0_pay7 (iblk0 V c 2 ⟨0, h⟩)) (k0_pay8 (iblk0 V c 0 ⟨0, h⟩) (iblk0 V c 3 ⟨0, h⟩)) (k0_pay9 (iblk0 V c 4 ⟨0, h⟩)) (k0_pay10 (iblk0 V c 1 ⟨0, h⟩) (iblk0 V c 4 ⟨0, h⟩)) (k0_pay11 (iblk0 V c 1 ⟨0, h⟩) (iblk0 V c 4 ⟨0, h⟩)) (k0_pay4 (F := Ideal)) k).trans ?_
    rw [BlockValues.zero_row, zero_add, Finset.sum_range_one, colTerm, dif_pos h]
    rfl
  | n + 1, h, k => by
    have hN : cfg0.N = 200 := N_0
    have hB : ¬(⟨n + 1, h⟩ : Fin cfg0.N).val % 200 = 0 := by dsimp only; omega
    have e := (later_point V c ⟨n + 1, h⟩ hB).2.1
    refine (congrFun e (ix2 (0 : Fin 1) k)).trans ?_
    refine (BlockValues.block_colSum (k0_pay7 (iblk0 V c 2 ⟨n + 1, h⟩)) (k0_pay8 (iblk0 V c 0 ⟨n + 1, h⟩) (iblk0 V c 3 ⟨n + 1, h⟩)) (k0_pay9 (iblk0 V c 4 ⟨n + 1, h⟩)) (k0_pay10 (iblk0 V c 1 ⟨n + 1, h⟩) (iblk0 V c 4 ⟨n + 1, h⟩)) (k0_pay11 (iblk0 V c 1 ⟨n + 1, h⟩) (iblk0 V c 4 ⟨n + 1, h⟩)) (outsAt0 V c ((⟨n + 1, h⟩ : Fin cfg0.N).val - 1) (Nat.lt_of_le_of_lt (Nat.sub_le _ _) (⟨n + 1, h⟩ : Fin cfg0.N).isLt)).2.1 k).trans ?_
    rw [Finset.sum_range_succ, ← col_at c n (Nat.lt_of_succ_lt h) k, colTerm, dif_pos h]
    rfl

/-- After point `n` the third buffer holds the weighted coordinate sums of the blocks of points 0 … n. -/
theorem weighted_at (c : Dev nD) : ∀ (n : ℕ) (h : n < cfg0.N) (k p : Fin 16),
    ((outsAt0 V c n h).2.2 : Vec Ideal S16x16 .f32) (ix2 k p) = ∑ s ∈ Finset.range (n + 1), weightedTerm V c s k p
  | 0, h, k, p => by
    have e := (first_point V c ⟨0, h⟩ rfl).2.2
    refine (congrFun e (ix2 k p)).trans ?_
    refine (BlockValues.block_weighted (iblk0 V c 0 ⟨0, h⟩) (k0_pay7 (iblk0 V c 2 ⟨0, h⟩)) (k0_pay8 (iblk0 V c 0 ⟨0, h⟩) (iblk0 V c 3 ⟨0, h⟩)) (k0_pay9 (iblk0 V c 4 ⟨0, h⟩)) (k0_pay10 (iblk0 V c 1 ⟨0, h⟩) (iblk0 V c 4 ⟨0, h⟩)) (k0_pay11 (iblk0 V c 1 ⟨0, h⟩) (iblk0 V c 4 ⟨0, h⟩)) (k0_pay5 (F := Ideal)) k p).trans ?_
    rw [BlockValues.zero_sq, zero_add, Finset.sum_range_one, weightedTerm, dif_pos h]
    rfl
  | n + 1, h, k, p => by
    have hN : cfg0.N = 200 := N_0
    have hB : ¬(⟨n + 1, h⟩ : Fin cfg0.N).val % 200 = 0 := by dsimp only; omega
    have e := (later_point V c ⟨n + 1, h⟩ hB).2.2
    refine (congrFun e (ix2 k p)).trans ?_
    refine (BlockValues.block_weighted (iblk0 V c 0 ⟨n + 1, h⟩) (k0_pay7 (iblk0 V c 2 ⟨n + 1, h⟩)) (k0_pay8 (iblk0 V c 0 ⟨n + 1, h⟩) (iblk0 V c 3 ⟨n + 1, h⟩)) (k0_pay9 (iblk0 V c 4 ⟨n + 1, h⟩)) (k0_pay10 (iblk0 V c 1 ⟨n + 1, h⟩) (iblk0 V c 4 ⟨n + 1, h⟩)) (k0_pay11 (iblk0 V c 1 ⟨n + 1, h⟩) (iblk0 V c 4 ⟨n + 1, h⟩)) (outsAt0 V c ((⟨n + 1, h⟩ : Fin cfg0.N).val - 1) (Nat.lt_of_le_of_lt (Nat.sub_le _ _) (⟨n + 1, h⟩ : Fin cfg0.N).isLt)).2.2 k p).trans ?_
    rw [Finset.sum_range_succ, ← weighted_at c n (Nat.lt_of_succ_lt h) k p, weightedTerm, dif_pos h]
    rfl

/-! ## The arrays the region leaves -/

/-- The responsibilities, as one array over all the points. -/
def respArr (c : Dev nD) : S1000000x16.Idx → EReal := fun j => gamAt V c (j 0) (j 1)

theorem respArr_apply (c : Dev nD) (i : Fin 1000000) (k : Fin 16) : respArr V c (ix2 i k) = gamAt V c i k := rfl

/-- What point `t` computes is block `t` of that array. -/
theorem resp_block_entry (c : Dev nD) (t : Fin cfg0.N) (j : S5000x16.Idx) :
    respBlk V c t j = ((cfg0.win 5).blk t).view.read (Elt Ideal) (respArr V c) j := by
  obtain ⟨r, q, rfl⟩ : ∃ (r : Fin 5000) (q : Fin 16), j = ix2 r q := ⟨j 0, j 1, eq_ix2 j⟩
  rw [View.read_apply]
  show respBlk V c t (ix2 r q) = respArr V c (((cfg0.win 5).blk t).view.emb (ix2 r q))
  rw [emb_resp, resp_entry]
  rfl

theorem flushed_resp (c : Dev nD) (t : Fin cfg0.N) :
    (dat0 V c).flushed 5 t = ((cfg0.win 5).blk t).view.read (Elt Ideal) (respArr V c) := by
  show (cfg0.win 5).cut (grid0.coords t) ((dat0 V c).after 5 t) = _
  rw [after0_5, resp_at V c t]
  exact funext (resp_block_entry V c t)

/-- The blocks tile the array, so it ends holding the responsibilities of every point. -/
theorem final_resp (c : Dev nD) : (dat0 V c).arrAt 5 cfg0.N = respArr V c :=
  (dat0 V c).arrAt_eq_of_cover 5 (respArr V c) (fun t _ => flushed_resp V c t) cover_resp

/-- The last grid point: the only one after which the two running buffers are written back. -/
def lastPt : Fin cfg0.N := ⟨199, by rw [show cfg0.N = 200 from N_0]; decide⟩

theorem flushed_col (c : Dev nD) (t : Fin cfg0.N) (hf : (cfg0.win 6).flush t = true) :
    (dat0 V c).flushed 6 t = ((cfg0.win 6).blk t).view.read (Elt Ideal) ((outsAt0 V c 199 lastPt.isLt).2.1) := by
  have hN : cfg0.N = 200 := N_0
  have h199 : t.val = 199 := by have := (flush0_6 t).mp hf; have := t.isLt; omega
  obtain rfl : t = lastPt := Fin.ext h199
  show (cfg0.win 6).cut (grid0.coords lastPt) ((dat0 V c).after 6 lastPt) = _
  rw [after0_6]
  refine funext fun j => ?_
  obtain ⟨p, q, rfl⟩ : ∃ (p : Fin 1) (q : Fin 16), (j : S1x16.Idx) = ix2 p q := ⟨j 0, j 1, eq_ix2 j⟩
  exact (whole_col _ lastPt p q).symm

theorem final_col (c : Dev nD) : (dat0 V c).arrAt 6 cfg0.N = (outsAt0 V c 199 lastPt.isLt).2.1 :=
  (dat0 V c).arrAt_eq_of_cover 6 _ (flushed_col V c) fun i => ⟨lastPt, (flush0_6 lastPt).mpr rfl, mem_blk_col lastPt i⟩

theorem flushed_weighted (c : Dev nD) (t : Fin cfg0.N) (hf : (cfg0.win 7).flush t = true) :
    (dat0 V c).flushed 7 t = ((cfg0.win 7).blk t).view.read (Elt Ideal) ((outsAt0 V c 199 lastPt.isLt).2.2) := by
  have hN : cfg0.N = 200 := N_0
  have h199 : t.val = 199 := by have := (flush0_7 t).mp hf; have := t.isLt; omega
  obtain rfl : t = lastPt := Fin.ext h199
  show (cfg0.win 7).cut (grid0.coords lastPt) ((dat0 V c).after 7 lastPt) = _
  rw [after0_7]
  refine funext fun j => ?_
  obtain ⟨p, q, rfl⟩ : ∃ (p : Fin 16) (q : Fin 16), (j : S16x16.Idx) = ix2 p q := ⟨j 0, j 1, eq_ix2 j⟩
  exact (whole_weighted _ lastPt p q).symm

theorem final_weighted (c : Dev nD) : (dat0 V c).arrAt 7 cfg0.N = (outsAt0 V c 199 lastPt.isLt).2.2 :=
  (dat0 V c).arrAt_eq_of_cover 7 _ (flushed_weighted V c) fun i => ⟨lastPt, (flush0_7 lastPt).mpr rfl, mem_blk_weighted lastPt i⟩

/-! ## The 200 block sums are the sum over all the points -/

theorem sum_colTerm (c : Dev nD) (k : Fin 16) :
    ∑ s ∈ Finset.range (199 + 1), colTerm V c s k = ∑ i : Fin 1000000, gamAt V c i k := by
  have hN : cfg0.N = 200 := N_0
  rw [Cert.Lib.sum_blocks₂_of_eq 200 5000 (by norm_num) (fun i => gamAt V c i k),
    ← Fin.sum_univ_eq_sum_range (fun s => colTerm V c s k) 200]
  refine Finset.sum_congr rfl fun t _ => ?_
  have ht : t.val < cfg0.N := by rw [hN]; exact t.isLt
  rw [colTerm, dif_pos ht]
  refine Finset.sum_congr rfl fun r _ => ?_
  rw [resp_entry]

theorem sum_weightedTerm (c : Dev nD) (k p : Fin 16) :
    ∑ s ∈ Finset.range (199 + 1), weightedTerm V c s k p = ∑ i : Fin 1000000, gamAt V c i k * xAt V c i p := by
  have hN : cfg0.N = 200 := N_0
  rw [Cert.Lib.sum_blocks₂_of_eq 200 5000 (by norm_num) (fun i => gamAt V c i k * xAt V c i p),
    ← Fin.sum_univ_eq_sum_range (fun s => weightedTerm V c s k p) 200]
  refine Finset.sum_congr rfl fun t _ => ?_
  have ht : t.val < cfg0.N := by rw [hN]; exact t.isLt
  rw [weightedTerm, dif_pos ht]
  refine Finset.sum_congr rfl fun r _ => ?_
  rw [resp_entry, coords0]

/-- The row of column sums the region leaves: cluster `k`'s is the sum of its responsibilities over all the points. -/
theorem col_value (c : Dev nD) (k : Fin 16) :
    ((dat0 V c).arrAt 6 cfg0.N : Vec Ideal S1x16 .f32) (ix2 (0 : Fin 1) k)
      = Cert.MixtureStep.colSum (wAt V c) (cAt V c) (mAt V c) (xAt V c) (lAt V c) k := by
  rw [final_col, col_at V c 199 lastPt.isLt k, sum_colTerm]
  rfl

/-- The array of weighted sums the region leaves. -/
theorem weighted_value (c : Dev nD) (k p : Fin 16) :
    ((dat0 V c).arrAt 7 cfg0.N : Vec Ideal S16x16 .f32) (ix2 k p)
      = Cert.MixtureStep.weightedSum (wAt V c) (cAt V c) (mAt V c) (xAt V c) (lAt V c) k p := by
  rw [final_weighted, weighted_at V c 199 lastPt.isLt k p, sum_weightedTerm]
  rfl

end Cert.KernelIdeal.FirstRegion

end
-- ==== Proof.SecondRegion.lean ====
/-
  What the second launched region leaves in its result row, at the ideal values.

  The region walks the same 200 blocks of 5000 rows. At each grid point its body recomputes the block of
  responsibilities from the same arguments, multiplies each by e^l plus the squared distance of the point to the NEW
  centre of the cluster (an array the region reads), and adds the block's column sums to one running buffer that is
  zeroed at the first point and written back once, after the last. After point `n` the buffer holds the sum of the
  terms of points 0 … n; after the last, the sum over all the million rows regrouped into blocks.
-/
import proofs.«144664_j31903017074980_2_alg».proof.Proof.Gen.KernelIdeal.Frame
import proofs.«144664_j31903017074980_2_alg».proof.Proof.Pieces
import proofs.«144664_j31903017074980_2_alg».proof.Proof.BlockReads
import proofs.«144664_j31903017074980_2_alg».proof.Proof.BlockSums
import proofs.«144664_j31903017074980_2_alg».proof.Proof.MixtureStep
import proofs.«144664_j31903017074980_2_alg».proof.Proof.LibSumBlocks
import Idealize.ShloMosaic.Lib.Pipeline.Value
import Idealize.ShloMosaic.Lib.ValueIdx

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

namespace Cert.KernelIdeal.SecondRegion

open Cert.KernelIdeal Cert.KernelIdeal.Gen Idealize.ShloMosaic.ValueIdx Cert.KernelIdeal.BlockReads

variable (V : (c : Dev nD) → (b : Ref sig .tc) → Buf (Elt Ideal) ((c : Thread nD τ).loc b))

/-! ## The arrays the region finds, as plain families of extended reals -/

abbrev wAt (c : Dev nD) : Fin 16 → EReal := fun k => (V c main_v0 : Vec Ideal S1x16 .f32) (ix2 (0 : Fin 1) k)
abbrev cAt (c : Dev nD) : Fin 16 → EReal := fun k => (V c main_arg4 : Vec Ideal S16x1 .f32) (ix2 k (0 : Fin 1))
abbrev mAt (c : Dev nD) : Fin 16 → Fin 16 → EReal := fun k q => (V c main_arg3 : Vec Ideal S16x16 .f32) (ix2 k q)
abbrev xAt (c : Dev nD) : Fin 1000000 → Fin 16 → EReal := fun i q => (V c main_arg0 : Vec Ideal S1000000x16 .f32) (ix2 i q)
abbrev lAt (c : Dev nD) : Fin 1000000 → EReal := fun i => (V c main_arg1 : Vec Ideal S1000000x1 .f32) (ix2 i (0 : Fin 1))
/-- The new centres, which this region reads. -/
abbrev nAt (c : Dev nD) : Fin 16 → Fin 16 → EReal := fun k q => (V c main_v7 : Vec Ideal S16x16 .f32) (ix2 k q)

/-- Point `i`'s term of cluster `k`'s spread: its responsibility times e^l plus the squared distance to the new centre. -/
abbrev spreadAt (c : Dev nD) (i : Fin 1000000) (k : Fin 16) : EReal :=
  Cert.MixtureStep.gam (wAt V c) (cAt V c) (mAt V c) (xAt V c) (lAt V c) i k
    * (Ideal.exp (lAt V c i) + Cert.MixtureStep.sqDist (nAt V c) (xAt V c i) k)

/-! ## One grid point -/

/-- What the body adds to cluster `k`'s running spread at point `t`: the block's 5000 terms. -/
def spreadBlk (c : Dev nD) (t : Fin cfg1.N) (k : Fin 16) : EReal :=
  ∑ r : Fin 5000,
    Cert.MixtureStep.resp (fun k => (iblk1 V c 2 t : Vec Ideal S1x16 .f32) (ix2 (0 : Fin 1) k))
        (fun k => (iblk1 V c 4 t : Vec Ideal S16x1 .f32) (ix2 k (0 : Fin 1)))
        (fun k q => (iblk1 V c 3 t : Vec Ideal S16x16 .f32) (ix2 k q))
        (fun q => (iblk1 V c 0 t : Vec Ideal S5000x16 .f32) (ix2 r q))
        ((iblk1 V c 1 t : Vec Ideal S5000x1 .f32) (ix2 r (0 : Fin 1))) k
      * (Ideal.exp ((iblk1 V c 1 t : Vec Ideal S5000x1 .f32) (ix2 r (0 : Fin 1)))
          + Cert.MixtureStep.sqDist (fun k q => (iblk1 V c 5 t : Vec Ideal S16x16 .f32) (ix2 k q))
              (fun q => (iblk1 V c 0 t : Vec Ideal S5000x16 .f32) (ix2 r q)) k)

/-- They are the terms of points 5000·t … 5000·t + 4999. -/
theorem spreadBlk_eq (c : Dev nD) (t : Fin cfg1.N) (k : Fin 16) :
    spreadBlk V c t k = ∑ r : Fin 5000, spreadAt V c ⟨t.val * 5000 + r.val, row_lt1 t r⟩ k := by
  unfold spreadBlk
  refine Finset.sum_congr rfl fun r _ => ?_
  simp only [coords1 V c t, logvar1 V c t, weights1 V c t, centres1 V c t, clusterVar1 V c t, newCentres1 V c t]
  rfl

/-- The term of point `s` of the grid (zero past the grid). -/
def spreadTerm (c : Dev nD) (s : ℕ) (k : Fin 16) : EReal :=
  if h : s < cfg1.N then spreadBlk V c ⟨s, h⟩ k else 0

/-! ## The running buffer after each point: the partial sums over the points so far -/

/-- What the staging buffer holds after the first point. -/
theorem first_point (c : Dev nD) (t : Fin cfg1.N) (h0 : t.val % 200 = 0) :
    outsAt1 V c t.val t.isLt = k1_pay9 (F := Ideal) (iblk1 V c 0 t) (iblk1 V c 1 t) (k1_pay3 (iblk1 V c 2 t)) (k1_pay4 (iblk1 V c 5 t)) (k1_pay5 (iblk1 V c 0 t)) (k1_pay6 (iblk1 V c 0 t) (iblk1 V c 3 t)) (k1_pay7 (iblk1 V c 4 t)) (k1_pay8 (iblk1 V c 1 t) (iblk1 V c 4 t)) (k1_pay1 (F := Ideal)) := by
  rw [outsAt1_A V c t h0, Pieces.first_spread]

/-- What it holds after a later point, over what the point before left. -/
theorem later_point (c : Dev nD) (t : Fin cfg1.N) (h0 : ¬t.val % 200 = 0) :
    outsAt1 V c t.val t.isLt = k1_pay9 (F := Ideal) (iblk1 V c 0 t) (iblk1 V c 1 t) (k1_pay3 (iblk1 V c 2 t)) (k1_pay4 (iblk1 V c 5 t)) (k1_pay5 (iblk1 V c 0 t)) (k1_pay6 (iblk1 V c 0 t) (iblk1 V c 3 t)) (k1_pay7 (iblk1 V c 4 t)) (k1_pay8 (iblk1 V c 1 t) (iblk1 V c 4 t)) (outsAt1 V c (t.val - 1) (Nat.lt_of_le_of_lt (Nat.sub_le _ _) t.isLt)) := by
  rw [outsAt1_B V c t h0, Pieces.later_spread]

theorem outs_eq (c : Dev nD) : ∀ (n : ℕ) (h : n < cfg1.N) (k : Fin 16),
    ((outsAt1 V c n h) : Vec Ideal S1x16 .f32) (ix2 (0 : Fin 1) k) = ∑ s ∈ Finset.range (n + 1), spreadTerm V c s k
  | 0, h, k => by
    refine (congrFun (first_point V c ⟨0, h⟩ rfl) (ix2 (0 : Fin 1) k)).trans ?_
    refine (BlockValues.block_spread (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (k1_pay1 (F := Ideal)) k).trans ?_
    rw [BlockValues.zero_row1, zero_add, Finset.sum_range_one, spreadTerm, dif_pos h]
    rfl
  | n + 1, h, k => by
    have hN : cfg1.N = 200 := N_1
    have hB : ¬(⟨n + 1, h⟩ : Fin cfg1.N).val % 200 = 0 := by dsimp only; omega
    refine (congrFun (later_point V c ⟨n + 1, h⟩ hB) (ix2 (0 : Fin 1) k)).trans ?_
    refine (BlockValues.block_spread (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (outsAt1 V c ((⟨n + 1, h⟩ : Fin cfg1.N).val - 1) (Nat.lt_of_le_of_lt (Nat.sub_le _ _) (⟨n + 1, h⟩ : Fin cfg1.N).isLt)) k).trans ?_
    rw [Finset.sum_range_succ, ← outs_eq c n (Nat.lt_of_succ_lt h) k, spreadTerm, dif_pos h]
    rfl

/-! ## The array the region leaves -/

/-- The last grid point: the only one after which the running buffer is written back. -/
def lastPt : Fin cfg1.N := ⟨199, by rw [show cfg1.N = 200 from N_1]; decide⟩

theorem flushed_spread (c : Dev nD) (t : Fin cfg1.N) (hf : (cfg1.win 6).flush t = true) :
    (dat1 V c).flushed 6 t = ((cfg1.win 6).blk t).view.read (Elt Ideal) (outsAt1 V c 199 lastPt.isLt) := by
  have hN : cfg1.N = 200 := N_1
  have h199 : t.val = 199 := by have := (flush1_6 t).mp hf; have := t.isLt; omega
  obtain rfl : t = lastPt := Fin.ext h199
  show (cfg1.win 6).cut (grid1.coords lastPt) ((dat1 V c).after 6 lastPt) = _
  rw [after1_6]
  refine funext fun j => ?_
  obtain ⟨p, q, rfl⟩ : ∃ (p : Fin 1) (q : Fin 16), (j : S1x16.Idx) = ix2 p q := ⟨j 0, j 1, eq_ix2 j⟩
  exact (whole_spread _ lastPt p q).symm

theorem final_spread (c : Dev nD) : (dat1 V c).arrAt 6 cfg1.N = outsAt1 V c 199 lastPt.isLt :=
  (dat1 V c).arrAt_eq_of_cover 6 _ (flushed_spread V c) fun i => ⟨lastPt, (flush1_6 lastPt).mpr rfl, mem_blk_spread lastPt i⟩

/-- The 200 block sums are the sum over all the points. -/
theorem sum_spreadTerm (c : Dev nD) (k : Fin 16) :
    ∑ s ∈ Finset.range (199 + 1), spreadTerm V c s k = ∑ i : Fin 1000000, spreadAt V c i k := by
  have hN : cfg1.N = 200 := N_1
  rw [Cert.Lib.sum_blocks₂_of_eq 200 5000 (by norm_num) (fun i => spreadAt V c i k),
    ← Fin.sum_univ_eq_sum_range (fun s => spreadTerm V c s k) 200]
  refine Finset.sum_congr rfl fun t _ => ?_
  have ht : t.val < cfg1.N := by rw [hN]; exact t.isLt
  rw [spreadTerm, dif_pos ht, spreadBlk_eq]

/-- The row the region leaves: cluster `k`'s entry is the sum of its spread terms over all the points. -/
theorem spread_value (c : Dev nD) (k : Fin 16) :
    ((dat1 V c).arrAt 6 cfg1.N : Vec Ideal S1x16 .f32) (ix2 (0 : Fin 1) k) = ∑ i : Fin 1000000, spreadAt V c i k := by
  rw [final_spread, outs_eq V c 199 lastPt.isLt k, sum_spreadTerm]

end Cert.KernelIdeal.SecondRegion

end
-- ==== Proof.RefLogit.lean ====
/-
  The reference step read at an index, first part: the logits.

  The generated module reads every host operation of the reference at an index from its operands at an index. Here
  those readings are composed from the result down to the five argument arrays: each broadcast chain is followed to
  the element of the argument it copies, each row sum to the sum over the sixteen coordinates, and each matrix
  product to the sum of the sixteen products. What comes out is, coordinate by coordinate, the squared distance and
  the logit of the specification.
-/
import proofs.«144664_j31903017074980_2_alg».proof.Proof.Gen.ReferenceIdeal.Read
import proofs.«144664_j31903017074980_2_alg».proof.Proof.MixtureStep

noncomputable section

open scoped BigOperators

namespace Cert.ReferenceIdeal.RefRead

open Idealize.ShloMosaic Idealize.ShloMosaic.ValueIdx Cert.ReferenceIdeal Cert.ReferenceIdeal.Read

/-- The five argument arrays as functions of their coordinates: the weights, the clusters' log-variances, the centres,
    the points, and the points' log-variances. -/
abbrev wOf (x2 : (⟨S16, .f32⟩ : BufTy).Contents (Elt Ideal)) := fun k : Fin 16 => x2 (ix1 k)
abbrev cOf (x4 : (⟨S16x1, .f32⟩ : BufTy).Contents (Elt Ideal)) := fun k : Fin 16 => x4 (ix2 k (0 : Fin 1))
abbrev mOf (x3 : (⟨S16x16, .f32⟩ : BufTy).Contents (Elt Ideal)) := fun (k c : Fin 16) => x3 (ix2 k c)
abbrev xOf (x0 : (⟨S1000000x16, .f32⟩ : BufTy).Contents (Elt Ideal)) := fun (i : Fin 1000000) (c : Fin 16) => x0 (ix2 i c)
abbrev lOf (x1 : (⟨S1000000x1, .f32⟩ : BufTy).Contents (Elt Ideal)) := fun i : Fin 1000000 => x1 (ix2 i (0 : Fin 1))

/-- Two indices of rank two are equal when their coordinates are; a coordinate divided by one is itself. -/
local macro "idx2" : tactic =>
  `(tactic| exact funext fun a => Fin.ext (by
      match a with
      | ⟨0, _⟩ => first | rfl | exact Nat.div_one _
      | ⟨1, _⟩ => rfl))
/-- The same at rank one. -/
local macro "idx1" : tactic =>
  `(tactic| exact funext fun a => Fin.ext (by
      match a with
      | ⟨0, _⟩ => first | rfl | exact Nat.div_one _))

variable (x0 : (⟨S1000000x16, .f32⟩ : BufTy).Contents (Elt Ideal)) (x1 : (⟨S1000000x1, .f32⟩ : BufTy).Contents (Elt Ideal)) (x2 : (⟨S16, .f32⟩ : BufTy).Contents (Elt Ideal))
  (x3 : (⟨S16x16, .f32⟩ : BufTy).Contents (Elt Ideal)) (x4 : (⟨S16x1, .f32⟩ : BufTy).Contents (Elt Ideal))

/-! ## The constants, broadcast over the points and clusters -/

theorem v7_at (i : Fin 1000000) (k : Fin 16) : val_main_v7 (F := Ideal) (ix2 i k) = Cert.MixtureStep.c2 := by
  rw [val_main_v7_apply, val_main_cst_0_apply]; rfl
theorem v24_at (i : Fin 1000000) (k : Fin 16) : val_main_v24 (F := Ideal) (ix2 i k) = Cert.MixtureStep.c16 := by
  rw [val_main_v24_apply, val_main_cst_2_apply]; rfl
theorem v26_at (i : Fin 1000000) (k : Fin 16) : val_main_v26 (F := Ideal) (ix2 i k) = Cert.MixtureStep.c16 := by
  rw [val_main_v26_apply, val_main_cst_3_apply]; rfl
theorem v37_at (i : Fin 1000000) (k : Fin 16) : val_main_v37 (F := Ideal) (ix2 i k) = Cert.MixtureStep.cHalf := by
  rw [val_main_v37_apply, val_main_cst_4_apply]; rfl

/-! ## The squared distance ‖x‖² − 2⟨x, M k⟩ + ‖M k‖² -/

/-- ‖x‖², the row sum of the squares, broadcast along the clusters. -/
theorem v9_at (i : Fin 1000000) (k : Fin 16) :
    val_main_v9 (F := Ideal) x0 (ix2 i k) = ∑ c : Fin 16, xOf x0 i c * xOf x0 i c := by
  rw [val_main_v9_apply, val_main_v4_apply, val_main_v3_apply, val_main_cst_apply, Ideal.ofBits_def,
    Ideal.ofBits_zero_f32, zero_add]
  refine Finset.sum_congr rfl fun c _ => ?_
  rw [val_main_v2_apply, Ideal.mulf_def]
  have h : idx_main_v3 (idx_main_v4 (idx_main_v9 (ix2 i k))) c = ix2 i c := by idx2
  exact congrArg₂ (· * ·) (congrArg x0 h) (congrArg x0 h)

/-- ⟨x, M k⟩: the product with the transposed centres. -/
theorem v6_at (i : Fin 1000000) (k : Fin 16) :
    val_main_v6 (F := Ideal) x0 x3 (ix2 i k) = ∑ c : Fin 16, xOf x0 i c * mOf x3 k c := by
  rw [val_main_v6_apply]
  refine Finset.sum_congr rfl fun c _ => ?_
  rw [val_main_v5_apply]
  have hl : lidx_main_v6 (ix2 i k) c = ix2 i c := by idx2
  have hr : idx_main_v5 (ridx_main_v6 (ix2 i k) c) = ix2 k c := by idx2
  exact congrArg₂ (· * ·) (congrArg x0 hl) (congrArg x3 hr)

/-- ‖M k‖², the centres' row sums of squares, broadcast along the points. -/
theorem v14_at (i : Fin 1000000) (k : Fin 16) :
    val_main_v14 (F := Ideal) x3 (ix2 i k) = ∑ c : Fin 16, mOf x3 k c * mOf x3 k c := by
  rw [val_main_v14_apply, val_main_v13_apply, val_main_v12_apply, val_main_cst_1_apply, Ideal.ofBits_def,
    Ideal.ofBits_zero_f32, zero_add]
  refine Finset.sum_congr rfl fun c _ => ?_
  rw [val_main_v11_apply, Ideal.mulf_def]
  have h : idx_main_v12 (idx_main_v13 (idx_main_v14 (ix2 i k))) c = ix2 k c := by idx2
  exact congrArg₂ (· * ·) (congrArg x3 h) (congrArg x3 h)

/-- The reference's squared distance is the specification's. -/
theorem ref_sq (i : Fin 1000000) (k : Fin 16) :
    val_main_v15 (F := Ideal) x0 x3 (ix2 i k) = Cert.MixtureStep.sqDist (mOf x3) (xOf x0 i) k := by
  rw [val_main_v15_apply, val_main_v10_apply, val_main_v8_apply, v9_at, v7_at, v6_at, v14_at]
  simp only [Ideal.addf_def, Ideal.subf_def, Ideal.mulf_def]
  rfl

/-! ## The other terms of the logit -/

/-- e^(−C k). -/
theorem v34_at (i : Fin 1000000) (k : Fin 16) :
    val_main_v34 (F := Ideal) x4 (ix2 i k) = Ideal.exp (-(cOf x4 k)) := by
  rw [val_main_v34_apply, val_main_v18_apply, val_main_v17_apply, val_main_v16_apply, val_main_v1_apply,
    Ideal.hostUnary_exp_def, Ideal.hostNegf_def, Ideal.negf_def]
  have h : idx_main_v1 (idx_main_v18 (idx_main_v34 (ix2 i k))) = ix2 k (0 : Fin 1) := by idx2
  exact congrArg (fun t => Ideal.exp (-t)) (congrArg x4 h)
theorem v31_at (i : Fin 1000000) (k : Fin 16) :
    val_main_v31 (F := Ideal) x4 (ix2 i k) = Ideal.exp (-(cOf x4 k)) := by
  rw [val_main_v31_apply, val_main_v18_apply, val_main_v17_apply, val_main_v16_apply, val_main_v1_apply,
    Ideal.hostUnary_exp_def, Ideal.hostNegf_def, Ideal.negf_def]
  have h : idx_main_v1 (idx_main_v18 (idx_main_v31 (ix2 i k))) = ix2 k (0 : Fin 1) := by idx2
  exact congrArg (fun t => Ideal.exp (-t)) (congrArg x4 h)

/-- C k. -/
theorem v21_at (i : Fin 1000000) (k : Fin 16) : val_main_v21 (F := Ideal) x4 (ix2 i k) = cOf x4 k := by
  rw [val_main_v21_apply, val_main_v19_apply, val_main_v1_apply]
  have h : idx_main_v1 (idx_main_v19 (idx_main_v21 (ix2 i k))) = ix2 k (0 : Fin 1) := by idx2
  exact congrArg x4 h

/-- The point's log-variance l. -/
theorem v22_at (i : Fin 1000000) (k : Fin 16) : val_main_v22 (F := Ideal) x1 (ix2 i k) = lOf x1 i := by
  rw [val_main_v22_apply, val_main_v20_apply, val_main_v0_apply]
  have h : idx_main_v0 (idx_main_v20 (idx_main_v22 (ix2 i k))) = ix2 i (0 : Fin 1) := by idx2
  exact congrArg x1 h

/-- eˡ. -/
theorem v30_at (i : Fin 1000000) (k : Fin 16) : val_main_v30 (F := Ideal) x1 (ix2 i k) = Ideal.exp (lOf x1 i) := by
  rw [val_main_v30_apply, val_main_v29_apply, val_main_v28_apply, val_main_v0_apply, Ideal.hostUnary_exp_def]
  have h : idx_main_v0 (idx_main_v29 (idx_main_v30 (ix2 i k))) = ix2 i (0 : Fin 1) := by idx2
  exact congrArg (fun t => Ideal.exp t) (congrArg x1 h)

/-- log (w k). -/
theorem v41_at (i : Fin 1000000) (k : Fin 16) : val_main_v41 (F := Ideal) x2 (ix2 i k) = Ideal.log (wOf x2 k) := by
  rw [val_main_v41_apply, val_main_v40_apply, val_main_v39_apply, Ideal.hostUnary_log_def]
  have h : idx_main_v40 (idx_main_v41 (ix2 i k)) = ix1 k := by idx1
  exact congrArg (fun t => Ideal.log t) (congrArg x2 h)

/-- The reference's logit is the specification's. -/
theorem ref_logit (i : Fin 1000000) (k : Fin 16) :
    val_main_v42 (F := Ideal) x0 x1 x2 x3 x4 (ix2 i k)
      = Cert.MixtureStep.logit (wOf x2) (cOf x4) (mOf x3) (xOf x0 i) (lOf x1 i) k := by
  rw [val_main_v42_apply, val_main_v38_apply, val_main_v36_apply, val_main_v35_apply, val_main_v33_apply,
    val_main_v32_apply, val_main_v27_apply, val_main_v25_apply, val_main_v23_apply,
    v41_at, v37_at, v34_at, v31_at, v30_at, v26_at, v24_at, v22_at, v21_at, ref_sq]
  simp only [Ideal.addf_def, Ideal.subf_def, Ideal.mulf_def]
  rfl

end Cert.ReferenceIdeal.RefRead

end
-- ==== Proof.RefGamma.lean ====
/-
  The reference step read at an index, second part: the responsibilities.

  The row maximum of the logits is a reduction by `max` across the sixteen clusters, started from the lowest value;
  for a commutative and associative operation such a reduction is the fold over the row's sixteen coordinates, in any
  order. The reference takes the maximum with the lowest value once more, which changes nothing. The shifted
  logits are exponentiated, summed along the row, divided, and the constant is added: the specification's `resp`.
-/
import proofs.«144664_j31903017074980_2_alg».proof.Proof.RefLogit

noncomputable section

open scoped BigOperators

namespace Cert.ReferenceIdeal.RefRead

open Idealize.ShloMosaic Idealize.ShloMosaic.ValueIdx Cert.ReferenceIdeal Cert.ReferenceIdeal.Gen Cert.ReferenceIdeal.Read

/-- Two indices of rank two are equal when their coordinates are; a coordinate divided by one is itself. -/
local macro "idx2" : tactic =>
  `(tactic| exact funext fun a => Fin.ext (by
      match a with
      | ⟨0, _⟩ => first | rfl | exact Nat.div_one _
      | ⟨1, _⟩ => rfl))
/-- The same at rank one. -/
local macro "idx1" : tactic =>
  `(tactic| exact funext fun a => Fin.ext (by
      match a with
      | ⟨0, _⟩ => first | rfl | exact Nat.div_one _))

/-- A reduction by `max` across the second axis of a 1000000 × 16 array, read at row `i`: the fold of `max` from the
    initial value over the row's sixteen entries. -/
theorem rowFold (z : (⟨S1000000x16, .f32⟩ : BufTy).Contents (Elt Ideal)) (c : (⟨S_, .f32⟩ : BufTy).Contents (Elt Ideal)) (i : Fin 1000000) :
    Host.reduce (FloatOps.maximumf (F := Ideal) (φ := .f32)) z c reducesTo_S1000000x16_S1000000_d1 h_S_ (ix1 i)
      = (Finset.univ : Finset (Fin 16)).fold max (c (Shape.Idx.first h_S_)) (fun k => z (ix2 i k)) := by
  have hR : S1000000x16.Reduces [1] S1000000 := by decide
  rw [Host.reduce_eq_fold_single (FloatOps.maximumf (F := Ideal) (φ := .f32)) z c reducesTo_S1000000x16_S1000000_d1 hR h_S_
    (ix1 i)]
  have hl : ∀ k : Fin 16, hR.lift (ix1 i) k = ix2 i k := fun k => by idx2
  show (Finset.univ : Finset (Fin 16)).fold max (c (Shape.Idx.first h_S_)) (fun k => z (hR.lift (ix1 i) k)) = _
  exact congrArg (fun f : Fin 16 → EReal => (Finset.univ : Finset (Fin 16)).fold max (c (Shape.Idx.first h_S_)) f)
    (funext fun k => congrArg z (hl k))

variable (x0 : (⟨S1000000x16, .f32⟩ : BufTy).Contents (Elt Ideal)) (x1 : (⟨S1000000x1, .f32⟩ : BufTy).Contents (Elt Ideal)) (x2 : (⟨S16, .f32⟩ : BufTy).Contents (Elt Ideal))
  (x3 : (⟨S16x16, .f32⟩ : BufTy).Contents (Elt Ideal)) (x4 : (⟨S16x1, .f32⟩ : BufTy).Contents (Elt Ideal))

/-- The reference's row maximum, after its second `max` with the lowest value, is the specification's. -/
theorem v45_at (i : Fin 1000000) :
    val_main_v45 (F := Ideal) x0 x1 x2 x3 x4 (ix1 i) = Cert.MixtureStep.rowMax (Cert.MixtureStep.logit (wOf x2) (cOf x4) (mOf x3) (xOf x0 i) (lOf x1 i)) := by
  rw [val_main_v45_apply, val_main_v44_apply, val_main_cst_6_apply, Ideal.maximumf_def]
  unfold val_main_v43
  rw [rowFold, val_main_cst_5_apply]
  simp only [ref_logit]
  exact Cert.MixtureStep.max_low_rowMax _

/-- The exponential of the shifted logit. -/
theorem v49_at (i : Fin 1000000) (k : Fin 16) :
    val_main_v49 (F := Ideal) x0 x1 x2 x3 x4 (ix2 i k)
      = Ideal.exp (Cert.MixtureStep.logit (wOf x2) (cOf x4) (mOf x3) (xOf x0 i) (lOf x1 i) k - Cert.MixtureStep.rowMax (Cert.MixtureStep.logit (wOf x2) (cOf x4) (mOf x3) (xOf x0 i) (lOf x1 i))) := by
  rw [val_main_v49_apply, val_main_v48_apply, val_main_v47_apply, val_main_v46_apply, ref_logit,
    Ideal.hostUnary_exp_def, Ideal.subf_def]
  have h : idx_main_v46 (idx_main_v47 (ix2 i k)) = ix1 i := by idx1
  rw [h, v45_at]

/-- The row sum of those exponentials. -/
theorem v50_at (i : Fin 1000000) :
    val_main_v50 (F := Ideal) x0 x1 x2 x3 x4 (ix1 i)
      = ∑ k' : Fin 16, Ideal.exp (Cert.MixtureStep.logit (wOf x2) (cOf x4) (mOf x3) (xOf x0 i) (lOf x1 i) k' - Cert.MixtureStep.rowMax (Cert.MixtureStep.logit (wOf x2) (cOf x4) (mOf x3) (xOf x0 i) (lOf x1 i))) := by
  rw [val_main_v50_apply, val_main_cst_7_apply, Ideal.ofBits_def, Ideal.ofBits_zero_f32, zero_add]
  refine Finset.sum_congr rfl fun k' _ => ?_
  have h : idx_main_v50 (ix1 i) k' = ix2 i k' := by idx2
  rw [h, v49_at]

/-- The reference's first result, the responsibilities, is the specification's. -/
theorem ref_gam (i : Fin 1000000) (k : Fin 16) :
    val_main_v55 (F := Ideal) x0 x1 x2 x3 x4 (ix2 i k) = Cert.MixtureStep.gam (wOf x2) (cOf x4) (mOf x3) (xOf x0) (lOf x1) i k := by
  rw [val_main_v55_apply, val_main_v53_apply, val_main_v52_apply, val_main_v51_apply, val_main_v54_apply,
    val_main_cst_8_apply, v49_at]
  have h : idx_main_v51 (idx_main_v52 (ix2 i k)) = ix1 i := by idx1
  rw [h, v50_at, Ideal.hostDivf_def, Ideal.addf_def, Ideal.ofBits_def]
  rfl

end Cert.ReferenceIdeal.RefRead

end
-- ==== Proof.RefStats.lean ====
/-
  The reference step read at an index, third part: the column sums, the new weights and the new centres.

  Each is a sum over the million points of a term that contains a responsibility; under the sum the responsibility is
  replaced by the specification's, point by point, and the sum itself is never opened.
-/
import proofs.«144664_j31903017074980_2_alg».proof.Proof.RefGamma

noncomputable section

open scoped BigOperators

namespace Cert.ReferenceIdeal.RefRead

open Idealize.ShloMosaic Idealize.ShloMosaic.ValueIdx Cert.ReferenceIdeal Cert.ReferenceIdeal.Gen Cert.ReferenceIdeal.Read

/-- Two indices of rank two are equal when their coordinates are; a coordinate divided by one is itself. -/
local macro "idx2" : tactic =>
  `(tactic| exact funext fun a => Fin.ext (by
      match a with
      | ⟨0, _⟩ => first | rfl | exact Nat.div_one _
      | ⟨1, _⟩ => rfl))
/-- The same at rank one. -/
local macro "idx1" : tactic =>
  `(tactic| exact funext fun a => Fin.ext (by
      match a with
      | ⟨0, _⟩ => first | rfl | exact Nat.div_one _))

variable (x0 : (⟨S1000000x16, .f32⟩ : BufTy).Contents (Elt Ideal)) (x1 : (⟨S1000000x1, .f32⟩ : BufTy).Contents (Elt Ideal)) (x2 : (⟨S16, .f32⟩ : BufTy).Contents (Elt Ideal))
  (x3 : (⟨S16x16, .f32⟩ : BufTy).Contents (Elt Ideal)) (x4 : (⟨S16x1, .f32⟩ : BufTy).Contents (Elt Ideal))

/-- The column sums of the responsibilities. -/
theorem v56_at (k : Fin 16) :
    val_main_v56 (F := Ideal) x0 x1 x2 x3 x4 (ix1 k) = Cert.MixtureStep.colSum (wOf x2) (cOf x4) (mOf x3) (xOf x0) (lOf x1) k := by
  rw [val_main_v56_apply, val_main_cst_9_apply, Ideal.ofBits_def, Ideal.ofBits_zero_f32, zero_add]
  unfold Cert.MixtureStep.colSum
  refine Finset.sum_congr rfl fun i _ => ?_
  have h : idx_main_v56 (ix1 k) i = ix2 i k := by idx2
  rw [h, ref_gam]

/-- The reference's second result, the new weights, is the specification's. -/
theorem ref_weight (k : Fin 16) :
    val_main_v58 (F := Ideal) x0 x1 x2 x3 x4 (ix1 k) = Cert.MixtureStep.newWeight (wOf x2) (cOf x4) (mOf x3) (xOf x0) (lOf x1) k := by
  rw [val_main_v58_apply, val_main_v57_apply, val_main_cst_10_apply, v56_at, Ideal.hostDivf_def, Ideal.ofBits_def]
  rfl

/-- The responsibility-weighted sums of the points' coordinates: the product of the transposed responsibilities with
    the points. -/
theorem v60_at (k p : Fin 16) :
    val_main_v60 (F := Ideal) x0 x1 x2 x3 x4 (ix2 k p) = Cert.MixtureStep.weightedSum (wOf x2) (cOf x4) (mOf x3) (xOf x0) (lOf x1) k p := by
  rw [val_main_v60_apply]
  unfold Cert.MixtureStep.weightedSum
  refine Finset.sum_congr rfl fun i _ => ?_
  rw [val_main_v59_apply]
  have hl : idx_main_v59 (lidx_main_v60 (ix2 k p) i) = ix2 i k := by idx2
  have hr : ridx_main_v60 (ix2 k p) i = ix2 i p := by idx2
  rw [hl, hr, ref_gam]

/-- The column sums broadcast along the coordinates. -/
theorem v62_at (k p : Fin 16) :
    val_main_v62 (F := Ideal) x0 x1 x2 x3 x4 (ix2 k p) = Cert.MixtureStep.colSum (wOf x2) (cOf x4) (mOf x3) (xOf x0) (lOf x1) k := by
  rw [val_main_v62_apply, val_main_v61_apply]
  have h : idx_main_v61 (idx_main_v62 (ix2 k p)) = ix1 k := by idx1
  rw [h, v56_at]

/-- The reference's third result, the new centres, is the specification's. -/
theorem ref_centre (k p : Fin 16) :
    val_main_v63 (F := Ideal) x0 x1 x2 x3 x4 (ix2 k p) = Cert.MixtureStep.newCentre (wOf x2) (cOf x4) (mOf x3) (xOf x0) (lOf x1) k p := by
  rw [val_main_v63_apply, v60_at, v62_at, Ideal.hostDivf_def]
  rfl

end Cert.ReferenceIdeal.RefRead

end
-- ==== Proof.RefLogVar.lean ====
/-
  The reference step read at an index, fourth part: the new log-variances.

  The squared distance of a point to a NEW centre is expanded as before, ‖x‖² − 2⟨x, M' k⟩ + ‖M' k‖², with the new
  centres M' in the place of the old ones; it is added to eˡ, weighted by the responsibility and summed over the
  points; the sum is divided by sixteen times the column sum and the logarithm is taken.
-/
import proofs.«144664_j31903017074980_2_alg».proof.Proof.RefStats

noncomputable section

open scoped BigOperators

namespace Cert.ReferenceIdeal.RefRead

open Idealize.ShloMosaic Idealize.ShloMosaic.ValueIdx Cert.ReferenceIdeal Cert.ReferenceIdeal.Gen Cert.ReferenceIdeal.Read

/-- Two indices of rank two are equal when their coordinates are; a coordinate divided by one is itself. -/
local macro "idx2" : tactic =>
  `(tactic| exact funext fun a => Fin.ext (by
      match a with
      | ⟨0, _⟩ => first | rfl | exact Nat.div_one _
      | ⟨1, _⟩ => rfl))
/-- The same at rank one. -/
local macro "idx1" : tactic =>
  `(tactic| exact funext fun a => Fin.ext (by
      match a with
      | ⟨0, _⟩ => first | rfl | exact Nat.div_one _))

variable (x0 : (⟨S1000000x16, .f32⟩ : BufTy).Contents (Elt Ideal)) (x1 : (⟨S1000000x1, .f32⟩ : BufTy).Contents (Elt Ideal)) (x2 : (⟨S16, .f32⟩ : BufTy).Contents (Elt Ideal))
  (x3 : (⟨S16x16, .f32⟩ : BufTy).Contents (Elt Ideal)) (x4 : (⟨S16x1, .f32⟩ : BufTy).Contents (Elt Ideal))

theorem v69_at (i : Fin 1000000) (k : Fin 16) : val_main_v69 (F := Ideal) (ix2 i k) = Cert.MixtureStep.c2 := by
  rw [val_main_v69_apply, val_main_cst_12_apply]; rfl
theorem v84_at (k : Fin 16) : val_main_v84 (F := Ideal) (ix1 k) = Cert.MixtureStep.c16 := by
  rw [val_main_v84_apply, val_main_cst_15_apply]; rfl

/-- ‖x‖² again. -/
theorem v71_at (i : Fin 1000000) (k : Fin 16) :
    val_main_v71 (F := Ideal) x0 (ix2 i k) = ∑ c : Fin 16, xOf x0 i c * xOf x0 i c := by
  rw [val_main_v71_apply, val_main_v66_apply, val_main_v65_apply, val_main_cst_11_apply, Ideal.ofBits_def,
    Ideal.ofBits_zero_f32, zero_add]
  refine Finset.sum_congr rfl fun c _ => ?_
  rw [val_main_v64_apply, Ideal.mulf_def]
  have h : idx_main_v65 (idx_main_v66 (idx_main_v71 (ix2 i k))) c = ix2 i c := by idx2
  exact congrArg₂ (· * ·) (congrArg x0 h) (congrArg x0 h)

/-- ⟨x, M' k⟩: the product with the transposed new centres. -/
theorem v68_at (i : Fin 1000000) (k : Fin 16) :
    val_main_v68 (F := Ideal) x0 x1 x2 x3 x4 (ix2 i k) = ∑ c : Fin 16, xOf x0 i c * Cert.MixtureStep.newCentre (wOf x2) (cOf x4) (mOf x3) (xOf x0) (lOf x1) k c := by
  rw [val_main_v68_apply]
  refine Finset.sum_congr rfl fun c _ => ?_
  rw [val_main_v67_apply]
  have hl : lidx_main_v68 (ix2 i k) c = ix2 i c := by idx2
  have hr : idx_main_v67 (ridx_main_v68 (ix2 i k) c) = ix2 k c := by idx2
  rw [hl, hr, ref_centre]

/-- ‖M' k‖². -/
theorem v76_at (i : Fin 1000000) (k : Fin 16) :
    val_main_v76 (F := Ideal) x0 x1 x2 x3 x4 (ix2 i k) = ∑ c : Fin 16, Cert.MixtureStep.newCentre (wOf x2) (cOf x4) (mOf x3) (xOf x0) (lOf x1) k c * Cert.MixtureStep.newCentre (wOf x2) (cOf x4) (mOf x3) (xOf x0) (lOf x1) k c := by
  rw [val_main_v76_apply, val_main_v75_apply, val_main_v74_apply, val_main_cst_13_apply, Ideal.ofBits_def,
    Ideal.ofBits_zero_f32, zero_add]
  refine Finset.sum_congr rfl fun c _ => ?_
  rw [val_main_v73_apply, Ideal.mulf_def]
  have h : idx_main_v74 (idx_main_v75 (idx_main_v76 (ix2 i k))) c = ix2 k c := by idx2
  rw [h, ref_centre]

/-- The squared distance to the new centre. -/
theorem v77_at (i : Fin 1000000) (k : Fin 16) :
    val_main_v77 (F := Ideal) x0 x1 x2 x3 x4 (ix2 i k) = Cert.MixtureStep.sqDist (Cert.MixtureStep.newCentre (wOf x2) (cOf x4) (mOf x3) (xOf x0) (lOf x1)) (xOf x0 i) k := by
  rw [val_main_v77_apply, val_main_v72_apply, val_main_v70_apply, v71_at, v69_at, v68_at, v76_at]
  simp only [Ideal.addf_def, Ideal.subf_def, Ideal.mulf_def]
  rfl

/-- eˡ again. -/
theorem v80_at (i : Fin 1000000) (k : Fin 16) : val_main_v80 (F := Ideal) x1 (ix2 i k) = Ideal.exp (lOf x1 i) := by
  rw [val_main_v80_apply, val_main_v79_apply, val_main_v78_apply, val_main_v0_apply, Ideal.hostUnary_exp_def]
  have h : idx_main_v0 (idx_main_v79 (idx_main_v80 (ix2 i k))) = ix2 i (0 : Fin 1) := by idx2
  exact congrArg (fun t => Ideal.exp t) (congrArg x1 h)

/-- The responsibility-weighted sums of eˡ + ‖x − M' k‖². -/
theorem v83_at (k : Fin 16) :
    val_main_v83 (F := Ideal) x0 x1 x2 x3 x4 (ix1 k) = Cert.MixtureStep.spread (wOf x2) (cOf x4) (mOf x3) (xOf x0) (lOf x1) k := by
  rw [val_main_v83_apply, val_main_cst_14_apply, Ideal.ofBits_def, Ideal.ofBits_zero_f32, zero_add]
  unfold Cert.MixtureStep.spread
  refine Finset.sum_congr rfl fun i _ => ?_
  have h : idx_main_v83 (ix1 k) i = ix2 i k := by idx2
  rw [h, val_main_v82_apply, val_main_v81_apply, ref_gam, v80_at, v77_at, Ideal.mulf_def, Ideal.addf_def]

/-- The reference's fourth result, the new log-variances, is the specification's. -/
theorem ref_logvar (k : Fin 16) :
    val_main_v88 (F := Ideal) x0 x1 x2 x3 x4 (ix2 k (0 : Fin 1)) = Cert.MixtureStep.newLogVar (wOf x2) (cOf x4) (mOf x3) (xOf x0) (lOf x1) k := by
  rw [val_main_v88_apply, val_main_v87_apply, val_main_v86_apply, val_main_v85_apply]
  have h : idx_main_v88 (ix2 k (0 : Fin 1)) = ix1 k := by idx1
  rw [h, v83_at, v84_at, v56_at, Ideal.hostUnary_log_def, Ideal.hostDivf_def, Ideal.mulf_def]
  rfl

end Cert.ReferenceIdeal.RefRead

end
-- ==== Proof.Bridge.lean ====
/-
  The two programs' results are the same extended reals.

  Both programs compute the responsibilities row by row from the same five arguments, and three statistics from sums of
  them over all the points. The idealized kernel forms each sum block by block over its grid and the reference in one
  reduction; both are the same finite sum (the first and second region's value modules; the reference's read-back).
  Around those sums the two programs apply the SAME few host operations — the column sums reshaped to a vector, a
  division by the number of points, a division row by row by the column sums, a product with sixteen, a division, a
  logarithm, a reshape to a column — so once the sums agree as arrays the results agree, the shared operations being
  carried along unopened.
  The arguments reach the regions unchanged (the weights as a row: the same sixteen numbers), and the new centres the
  second region reads are the third result itself.
-/
import proofs.«144664_j31903017074980_2_alg».proof.Defs
import proofs.«144664_j31903017074980_2_alg».proof.Proof.EndState
import proofs.«144664_j31903017074980_2_alg».proof.Proof.HostReads
import proofs.«144664_j31903017074980_2_alg».proof.Proof.FirstRegion
import proofs.«144664_j31903017074980_2_alg».proof.Proof.SecondRegion
import proofs.«144664_j31903017074980_2_alg».proof.Proof.RefLogVar
import proofs.«144664_j31903017074980_2_alg».proof.Proof.Gen.ReferenceIdeal.Run
import proofs.«144664_j31903017074980_2_alg».proof.Proof.Gen.ReferenceIdeal.Read
import Idealize.ShloMosaic.Lib.Pipeline.Value
import Idealize.ShloMosaic.Lib.ValueIdx

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen
open Cert.ReferenceIdeal.RefRead (wOf cOf mOf xOf lOf)

/-! ## Two reshapes read at an index -/

/-- A vector of sixteen kept as a one-row array: entry (0, k) of the row is entry k of the vector. -/
theorem row_of_vec {α : Type} (x : (⟨1, ![16]⟩ : Shape).Idx → α) (h : (⟨1, ![16]⟩ : Shape).ShapeCasts ⟨2, ![1, 16]⟩)
    (u : Fin 1) (k : Fin 16) : shapeCast ⟨2, ![1, 16]⟩ x h (ix2 u k) = x (ix1 k) :=
  shapeCast_apply x h _ _ (by
    have hu := u.isLt
    rw [Shape.rowMajor_val_two, Shape.rowMajor_val_one]
    show k.val = u.val * 16 + k.val
    omega)

/-- And back: entry k of the vector is entry (0, k) of the row. -/
theorem vec_of_row {α : Type} (x : (⟨2, ![1, 16]⟩ : Shape).Idx → α) (h : (⟨2, ![1, 16]⟩ : Shape).ShapeCasts ⟨1, ![16]⟩)
    (k : Fin 16) : shapeCast ⟨1, ![16]⟩ x h (ix1 k) = x (ix2 (0 : Fin 1) k) :=
  shapeCast_apply x h _ _ (by
    rw [Shape.rowMajor_val_two, Shape.rowMajor_val_one]
    show (0 : Fin 1).val * 16 + k.val = k.val
    simp)

variable (m : (ℓ : Loc nD τ sig) → Buf (Elt Ideal) ℓ) (ρ : Dev nD → PrngReg)

/-! ## The arguments as the two regions find them -/

theorem w_first (c : Dev nD) : FirstRegion.wAt (V1 m ρ) c = wOf (m ((c.tc : Thread nD τ).loc main_arg2)) := funext fun k => by
  show (V1 m ρ c main_v0 : Vec Ideal S1x16 .f32) (ix2 (0 : Fin 1) k) = _
  rw [HostReads.entry0_row]
  exact row_of_vec _ _ 0 k
theorem c_first (c : Dev nD) : FirstRegion.cAt (V1 m ρ) c = cOf (m ((c.tc : Thread nD τ).loc main_arg4)) := funext fun k => by
  show (V1 m ρ c main_arg4 : Vec Ideal S16x1 .f32) (ix2 k (0 : Fin 1)) = _
  rw [HostReads.entry0_arg4]
theorem m_first (c : Dev nD) : FirstRegion.mAt (V1 m ρ) c = mOf (m ((c.tc : Thread nD τ).loc main_arg3)) := funext fun k => funext fun q => by
  show (V1 m ρ c main_arg3 : Vec Ideal S16x16 .f32) (ix2 k q) = _
  rw [HostReads.entry0_arg3]
theorem x_first (c : Dev nD) : FirstRegion.xAt (V1 m ρ) c = xOf (m ((c.tc : Thread nD τ).loc main_arg0)) := funext fun i => funext fun q => by
  show (V1 m ρ c main_arg0 : Vec Ideal S1000000x16 .f32) (ix2 i q) = _
  rw [HostReads.entry0_arg0]
theorem l_first (c : Dev nD) : FirstRegion.lAt (V1 m ρ) c = lOf (m ((c.tc : Thread nD τ).loc main_arg1)) := funext fun i => by
  show (V1 m ρ c main_arg1 : Vec Ideal S1000000x1 .f32) (ix2 i (0 : Fin 1)) = _
  rw [HostReads.entry0_arg1]

theorem w_second (c : Dev nD) : SecondRegion.wAt (V3 m ρ) c = wOf (m ((c.tc : Thread nD τ).loc main_arg2)) := funext fun k => by
  show (V3 m ρ c main_v0 : Vec Ideal S1x16 .f32) (ix2 (0 : Fin 1) k) = _
  rw [HostReads.entry1_row]
  exact row_of_vec _ _ 0 k
theorem c_second (c : Dev nD) : SecondRegion.cAt (V3 m ρ) c = cOf (m ((c.tc : Thread nD τ).loc main_arg4)) := funext fun k => by
  show (V3 m ρ c main_arg4 : Vec Ideal S16x1 .f32) (ix2 k (0 : Fin 1)) = _
  rw [HostReads.entry1_arg4]
theorem m_second (c : Dev nD) : SecondRegion.mAt (V3 m ρ) c = mOf (m ((c.tc : Thread nD τ).loc main_arg3)) := funext fun k => funext fun q => by
  show (V3 m ρ c main_arg3 : Vec Ideal S16x16 .f32) (ix2 k q) = _
  rw [HostReads.entry1_arg3]
theorem x_second (c : Dev nD) : SecondRegion.xAt (V3 m ρ) c = xOf (m ((c.tc : Thread nD τ).loc main_arg0)) := funext fun i => funext fun q => by
  show (V3 m ρ c main_arg0 : Vec Ideal S1000000x16 .f32) (ix2 i q) = _
  rw [HostReads.entry1_arg0]
theorem l_second (c : Dev nD) : SecondRegion.lAt (V3 m ρ) c = lOf (m ((c.tc : Thread nD τ).loc main_arg1)) := funext fun i => by
  show (V3 m ρ c main_arg1 : Vec Ideal S1000000x1 .f32) (ix2 i (0 : Fin 1)) = _
  rw [HostReads.entry1_arg1]

/-! ## The sums agree as arrays -/

/-- The responsibilities. -/
theorem resp_eq (c : Dev nD) :
    Cert.ReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (dat0 (V1 m ρ) c).arrAt 5 cfg0.N := by
  rw [FirstRegion.final_resp]
  funext j
  obtain ⟨i, k, rfl⟩ : ∃ (i : Fin 1000000) (k : Fin 16), j = ix2 i k := ⟨j 0, j 1, eq_ix2 j⟩
  rw [Cert.ReferenceIdeal.RefRead.ref_gam, FirstRegion.respArr_apply]
  unfold FirstRegion.gamAt
  rw [w_first, c_first, m_first, x_first, l_first]

/-- The column sums, as a vector. -/
theorem col_eq (c : Dev nD) :
    Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = HostReads.colVec m ρ c := by
  funext j
  obtain ⟨k, rfl⟩ : ∃ k : Fin 16, j = ix1 k := ⟨j 0, eq_ix1 j⟩
  rw [Cert.ReferenceIdeal.RefRead.v56_at]
  unfold HostReads.colVec
  rw [vec_of_row, FirstRegion.col_value, w_first, c_first, m_first, x_first, l_first]

/-- The responsibility-weighted coordinate sums. -/
theorem weighted_eq (c : Dev nD) :
    Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = ((dat0 (V1 m ρ) c).arrAt 7 cfg0.N : Vec Ideal S16x16 .f32) := by
  funext j
  obtain ⟨k, p, rfl⟩ : ∃ (k : Fin 16) (p : Fin 16), j = ix2 k p := ⟨j 0, j 1, eq_ix2 j⟩
  rw [Cert.ReferenceIdeal.RefRead.v60_at, FirstRegion.weighted_value, w_first, c_first, m_first, x_first, l_first]

/-- So the new centres agree: the same division of the same arrays. -/
theorem centres_eq (c : Dev nD) :
    Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = HostReads.centres m ρ c := by
  unfold Cert.ReferenceIdeal.Read.val_main_v63 Cert.ReferenceIdeal.Read.val_main_v62 Cert.ReferenceIdeal.Read.val_main_v61 HostReads.centres
  rw [weighted_eq m ρ c, col_eq m ρ c]

/-- The new centres as the second region finds them. -/
theorem n_second (c : Dev nD) :
    SecondRegion.nAt (V3 m ρ) c = Cert.MixtureStep.newCentre (wOf (m ((c.tc : Thread nD τ).loc main_arg2))) (cOf (m ((c.tc : Thread nD τ).loc main_arg4))) (mOf (m ((c.tc : Thread nD τ).loc main_arg3))) (xOf (m ((c.tc : Thread nD τ).loc main_arg0))) (lOf (m ((c.tc : Thread nD τ).loc main_arg1))) := funext fun k => funext fun q => by
  show (V3 m ρ c main_v7 : Vec Ideal S16x16 .f32) (ix2 k q) = _
  rw [HostReads.entry1_centres, ← centres_eq m ρ c, Cert.ReferenceIdeal.RefRead.ref_centre]

/-- The spreads, as a vector. -/
theorem spread_eq (c : Dev nD) :
    Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      = shapeCast _ ((dat1 (V3 m ρ) c).arrAt 6 cfg1.N : (⟨S1x16, .f32⟩ : BufTy).Contents (Elt Ideal)) shapeCasts_S1x16_S16 := by
  funext j
  obtain ⟨k, rfl⟩ : ∃ k : Fin 16, j = ix1 k := ⟨j 0, eq_ix1 j⟩
  rw [Cert.ReferenceIdeal.RefRead.v83_at, vec_of_row, SecondRegion.spread_value]
  unfold Cert.MixtureStep.spread
  refine Finset.sum_congr rfl fun i _ => ?_
  unfold SecondRegion.spreadAt
  rw [w_second, c_second, m_second, x_second, l_second, n_second]

/-! ## The four results -/

variable (m' : (ℓ : Loc Cert.ReferenceIdeal.nD Cert.ReferenceIdeal.τ Cert.ReferenceIdeal.sig) → Buf (Elt Ideal) ℓ)

/-- The two memories hold the same arguments. -/
abbrev Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)

theorem result_resp (c : Dev nD) (h : Agree m m' c) :
    Cert.ReferenceIdeal.Value.res_main_v55 m' c = W5 m ρ c (Proc.devRef .tc main_v1_0) := by
  rw [Cert.ReferenceIdeal.Read.val_main_v55_eq, h.1, h.2.1, h.2.2.1, h.2.2.2.1, h.2.2.2.2, HostReads.final_resp, resp_eq m ρ c]

theorem result_weights (c : Dev nD) (h : Agree m m' c) :
    Cert.ReferenceIdeal.Value.res_main_v58 m' c = W5 m ρ c (Proc.devRef .tc main_v4) := by
  rw [Cert.ReferenceIdeal.Read.val_main_v58_eq, h.1, h.2.1, h.2.2.1, h.2.2.2.1, h.2.2.2.2, HostReads.final_weights]
  unfold Cert.ReferenceIdeal.Read.val_main_v58 Cert.ReferenceIdeal.Read.val_main_v57 Cert.ReferenceIdeal.Read.val_main_cst_10
  rw [col_eq m ρ c]

theorem result_centres (c : Dev nD) (h : Agree m m' c) :
    Cert.ReferenceIdeal.Value.res_main_v63 m' c = W5 m ρ c (Proc.devRef .tc main_v7) := by
  rw [Cert.ReferenceIdeal.Read.val_main_v63_eq, h.1, h.2.1, h.2.2.1, h.2.2.2.1, h.2.2.2.2, HostReads.final_centres, centres_eq m ρ c]

theorem result_logvar (c : Dev nD) (h : Agree m m' c) :
    Cert.ReferenceIdeal.Value.res_main_v88 m' c = W5 m ρ c (Proc.devRef .tc main_v14) := by
  rw [Cert.ReferenceIdeal.Read.val_main_v88_eq, h.1, h.2.1, h.2.2.1, h.2.2.2.1, h.2.2.2.2, HostReads.final_logvar]
  unfold Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_cst_15
  rw [spread_eq m ρ c, col_eq m ρ c]

end Cert.Bridge

end
-- ==== Proof.lean ====
/-
  One expectation–maximisation step of a sixteen-component spherical Gaussian mixture over a million points: a kernel
  that makes two passes over the points in 200 blocks of 5000 rows, against the same step written with whole-array
  reductions.

  The first pass computes, for each block, the responsibilities of its rows (a softmax, over the clusters, of the
  log-weights minus the Gaussian divergences, each row shifted by its largest logit, plus a small constant), writes them
  out, and adds the block's column sums and its responsibility-weighted coordinate sums to two running buffers. Between
  the passes the new weights (column sums over the number of points) and the new centres (weighted sums over column
  sums) are formed. The second pass recomputes the responsibilities block by block and accumulates, per cluster, their
  products with e^l plus the squared distance to the new centre; the new log-variances are the logarithm of that over
  sixteen times the column sums.

  Over the extended reals the two programs are one function of the arguments. Row by row they perform the same
  operations in the same order; they differ in three places, each an identity on every extended real: the kernel writes
  a negation as a subtraction from zero; the reference takes the maximum of the row maximum with the value that maximum
  was started from; and the kernel adds up each column in 200 block sums where the reference sums it in one reduction —
  a regrouping of a finite sum in an additive commutative monoid. Nothing here needs the inputs to be finite: the
  precondition is not used.

  The idealization rewrote no operation, so that it preserves the kernel is immediate. Each program runs, nothing
  faulting, and leaves its arguments as launched: the two kernels' by the frame of their two launched regions among
  three stretches of host operations, the reference's as a straight line of host operations.
-/
import proofs.«144664_j31903017074980_2_alg».proof.Defs
import proofs.«144664_j31903017074980_2_alg».proof.Proof.Gen.Kernel
import proofs.«144664_j31903017074980_2_alg».proof.Proof.Gen.Kernel.Skeleton
import proofs.«144664_j31903017074980_2_alg».proof.Proof.Gen.Kernel.Launch
import proofs.«144664_j31903017074980_2_alg».proof.Proof.Gen.Kernel.Points
import proofs.«144664_j31903017074980_2_alg».proof.Proof.Gen.Kernel.Frame
import proofs.«144664_j31903017074980_2_alg».proof.Proof.Gen.KernelIdeal
import proofs.«144664_j31903017074980_2_alg».proof.Proof.Gen.KernelIdeal.Skeleton
import proofs.«144664_j31903017074980_2_alg».proof.Proof.Gen.KernelIdeal.Launch
import proofs.«144664_j31903017074980_2_alg».proof.Proof.Gen.KernelIdeal.Points
import proofs.«144664_j31903017074980_2_alg».proof.Proof.Gen.KernelIdeal.Frame
import proofs.«144664_j31903017074980_2_alg».proof.Proof.Gen.ReferenceIdeal
import proofs.«144664_j31903017074980_2_alg».proof.Proof.Gen.ReferenceIdeal.Run
import proofs.«144664_j31903017074980_2_alg».proof.Proof.Gen.ReferenceIdeal.Read
import proofs.«144664_j31903017074980_2_alg».proof.Proof.Gen.Pre_finite_inputs
import proofs.«144664_j31903017074980_2_alg».proof.Proof.EndState
import proofs.«144664_j31903017074980_2_alg».proof.Proof.Bridge
import Idealize.ShloMosaic.Adequacy
import Idealize.ShloMosaic.Init

noncomputable section

namespace Cert.Proof

open Idealize.ShloMosaic Idealize.SL.Sem

/-- The kernel as printed runs, nothing faulting, and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- And the reference: its run, with the results dropped. -/
theorem frame_referenceIdeal : Cert.frame_ReferenceIdeal :=
  fun m ρ _ => (θ_run Cert.ReferenceIdeal.defs _ _).mono (fun _ h c => (h c).2.2.2.2)
    (Cert.ReferenceIdeal.Value.run (F := Ideal) m ρ)

/-- From memories holding the same arguments both idealized programs run and end with the same four results: the
    kernel's at what its last stretch of host operations leaves, the reference's at its composed terms, equal array by
    array. -/
theorem algebraic : Cert.algebraic_KernelIdeal_ReferenceIdeal := by
  intro m ρ m' ρ' _ hagree
  refine ⟨fun c => Cert.KernelIdeal.Gen.W5 m ρ c (Proc.devRef .tc Cert.KernelIdeal.main_v1_0),
    fun c => Cert.KernelIdeal.Gen.W5 m ρ c (Proc.devRef .tc Cert.KernelIdeal.main_v4),
    fun c => Cert.KernelIdeal.Gen.W5 m ρ c (Proc.devRef .tc Cert.KernelIdeal.main_v7),
    fun c => Cert.KernelIdeal.Gen.W5 m ρ c (Proc.devRef .tc Cert.KernelIdeal.main_v14),
    Cert.KernelIdeal.EndState.run (F := Ideal) m ρ, ?_⟩
  refine (θ_run Cert.ReferenceIdeal.defs _ _).mono (fun _ h c => ?_) (Cert.ReferenceIdeal.Value.run (F := Ideal) m' ρ')
  obtain ⟨h0, h1, h2, h3, hargs⟩ := h c
  exact ⟨h0.trans (Cert.Bridge.result_resp m ρ m' c (hagree c)), h1.trans (Cert.Bridge.result_weights m ρ m' c (hagree c)),
    h2.trans (Cert.Bridge.result_centres m ρ m' c (hagree c)), h3.trans (Cert.Bridge.result_logvar m ρ m' c (hagree c)), hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
